-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x64 .f32) (main_arg8 : FVec F S256 .f32) (main_arg9 : FVec F S256 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S64 .f32) (main_arg5 : FVec F S64 .f32) (main_arg6 : FVec F S256x64 .f32) (main_arg7 : FVec F S256x64 .f32) (main_arg8 : FVec F S256 .f32) (main_arg9 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x256x128x128 .f32) (main_arg1 : FVec F S16x256x128x128 .f32) (main_arg2 : FVec F S64x256 .f32) (main_arg3 : FVec F S64x256 .f32) (main_arg4 : FVec F S64 .f32) (main_arg5 : FVec F S64 .f32) (main_arg6 : FVec F S256x64 .f32) (main_arg7 : FVec F S256x64 .f32) (main_arg8 : FVec F S256 .f32) (main_arg9 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256x128x128 .f32 := Host.absf main_arg1
  let main_cst_0 : FVec F S_ .f32 := constant S_ .f32 0x7F800000#32
  let main_v5 : FVec F S16x256x128x128 .f32 := broadcastInDim S16x256x128x128 ![] bcast_S_S16x256x128x128 main_cst_0
  let main_v6 : IVec S16x256x128x128 1 := cmpf .olt main_v4 main_v5
  let main_c_1 : IVec S_ 1 := constantI S_ 1 1#1
  let main_v7 : IVec S_ 1 := (fun x v => Host.reduce IntOp.andi x v reducesTo_S16x256x128x128_S_d0_1_2_3 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_arg8 main_arg9 main_v13 main_v16
-- ==== Kernel.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S4096x16384 : Shape := ⟨2, ![4096, 16384]⟩
abbrev S4096x1 : Shape := ⟨2, ![4096, 1]⟩
abbrev S128x16384 : Shape := ⟨2, ![128, 16384]⟩
abbrev S128x1 : Shape := ⟨2, ![128, 1]⟩
abbrev S128 : Shape := ⟨1, ![128]⟩
abbrev S16x256 : Shape := ⟨2, ![16, 256]⟩
abbrev S16x64 : Shape := ⟨2, ![16, 64]⟩
abbrev S1x64 : Shape := ⟨2, ![1, 64]⟩
abbrev S_ : Shape := ⟨0, ![]⟩
abbrev S1x256 : Shape := ⟨2, ![1, 256]⟩
abbrev S4096 : Shape := ⟨1, ![4096]⟩
abbrev S1x4096 : Shape := ⟨2, ![1, 4096]⟩
abbrev S2x4096 : Shape := ⟨2, ![2, 4096]⟩
abbrev S2x4096x1 : Shape := ⟨3, ![2, 4096, 1]⟩
abbrev S2x4096x16384 : Shape := ⟨3, ![2, 4096, 16384]⟩
abbrev S64x16384 : Shape := ⟨2, ![64, 16384]⟩
abbrev S2x64x1 : Shape := ⟨3, ![2, 64, 1]⟩
abbrev S2x64x16384 : Shape := ⟨3, ![2, 64, 16384]⟩
abbrev S1x64x1 : Shape := ⟨3, ![1, 64, 1]⟩
abbrev S64x1 : Shape := ⟨2, ![64, 1]⟩
abbrev S1x64x16384 : Shape := ⟨3, ![1, 64, 16384]⟩
abbrev S2x16x256x128x128 : Shape := ⟨5, ![2, 16, 256, 128, 128]⟩

abbrev nBuf : Space → Nat
  | .hbm => 138
  | .vmem => 20
  | .smem => 0
  | _ => 0

abbrev hbmTy0_0 (i : Nat) : BufTy := match i % 128 with
  | 0 => ⟨S16x256x128x128, .f32⟩
  | 1 => ⟨S16x256x128x128, .f32⟩
  | 2 => ⟨S64x256, .f32⟩
  | 3 => ⟨S64x256, .f32⟩
  | 4 => ⟨S64, .f32⟩
  | 5 => ⟨S64, .f32⟩
  | 6 => ⟨S256x64, .f32⟩
  | 7 => ⟨S256x64, .f32⟩
  | 8 => ⟨S256, .f32⟩
  | 9 => ⟨S256, .f32⟩
  | 10 => ⟨S4096x16384, .f32⟩
  | 11 => ⟨S4096x16384, .f32⟩
  | 12 => ⟨S4096x1, .f32⟩
  | 13 => ⟨S4096x1, .f32⟩
  | 14 => ⟨S4096x1, .f32⟩
  | 15 => ⟨S4096x1, .f32⟩
  | 16 => ⟨S16x256, .f32⟩
  | 17 => ⟨S16x256, .f32⟩
  | 18 => ⟨S16x256, .f32⟩
  | 19 => ⟨S16x256, .f32⟩
  | 20 => ⟨S256x64, .f32⟩
  | 21 => ⟨S16x64, .f32⟩
  | 22 => ⟨S256x64, .f32⟩
  | 23 => ⟨S16x64, .f32⟩
  | 24 => ⟨S16x64, .f32⟩
  | 25 => ⟨S1x64, .f32⟩
  | 26 => ⟨S16x64, .f32⟩
  | 27 => ⟨S16x64, .f32⟩
  | 28 => ⟨S256x64, .f32⟩
  | 29 => ⟨S16x64, .f32⟩
  | 30 => ⟨S256x64, .f32⟩
  | 31 => ⟨S16x64, .f32⟩
  | 32 => ⟨S16x64, .f32⟩
  | 33 => ⟨S1x64, .f32⟩
  | 34 => ⟨S16x64, .f32⟩
  | 35 => ⟨S16x64, .f32⟩
  | 36 => ⟨S_, .f32⟩
  | 37 => ⟨S16x64, .f32⟩
  | 38 => ⟨S16x64, .i1⟩
  | 39 => ⟨S_, .f32⟩
  | 40 => ⟨S16x64, .f32⟩
  | 41 => ⟨S16x64, .f32⟩
  | 42 => ⟨S16x64, .f32⟩
  | 43 => ⟨S_, .f32⟩
  | 44 => ⟨S16x64, .f32⟩
  | 45 => ⟨S16x64, .i1⟩
  | 46 => ⟨S_, .f32⟩
  | 47 => ⟨S16x64, .f32⟩
  | 48 => ⟨S16x64, .f32⟩
  | 49 => ⟨S16x64, .f32⟩
  | 50 => ⟨S64x256, .f32⟩
  | 51 => ⟨S16x256, .f32⟩
  | 52 => ⟨S64x256, .f32⟩
  | 53 => ⟨S16x256, .f32⟩
  | 54 => ⟨S16x256, .f32⟩
  | 55 => ⟨S1x256, .f32⟩
  | 56 => ⟨S16x256, .f32⟩
  | 57 => ⟨S16x256, .f32⟩
  | 58 => ⟨S64x256, .f32⟩
  | 59 => ⟨S16x256, .f32⟩
  | 60 => ⟨S64x256, .f32⟩
  | 61 => ⟨S16x256, .f32⟩
  | 62 => ⟨S16x256, .f32⟩
  | 63 => ⟨S1x256, .f32⟩
  | 64 => ⟨S16x256, .f32⟩
  | 65 => ⟨S16x256, .f32⟩
  | 66 => ⟨S256x64, .f32⟩
  | 67 => ⟨S16x64, .f32⟩
  | 68 => ⟨S256x64, .f32⟩
  | 69 => ⟨S16x64, .f32⟩
  | 70 => ⟨S16x64, .f32⟩
  | 71 => ⟨S1x64, .f32⟩
  | 72 => ⟨S16x64, .f32⟩
  | 73 => ⟨S16x64, .f32⟩
  | 74 => ⟨S256x64, .f32⟩
  | 75 => ⟨S16x64, .f32⟩
  | 76 => ⟨S256x64, .f32⟩
  | 77 => ⟨S16x64, .f32⟩
  | 78 => ⟨S16x64, .f32⟩
  | 79 => ⟨S1x64, .f32⟩
  | 80 => ⟨S16x64, .f32⟩
  | 81 => ⟨S16x64, .f32⟩
  | 82 => ⟨S_, .f32⟩
  | 83 => ⟨S16x64, .f32⟩
  | 84 => ⟨S16x64, .i1⟩
  | 85 => ⟨S_, .f32⟩
  | 86 => ⟨S16x64, .f32⟩
  | 87 => ⟨S16x64, .f32⟩
  | 88 => ⟨S16x64, .f32⟩
  | 89 => ⟨S_, .f32⟩
  | 90 => ⟨S16x64, .f32⟩
  | 91 => ⟨S16x64, .i1⟩
  | 92 => ⟨S_, .f32⟩
  | 93 => ⟨S16x64, .f32⟩
  | 94 => ⟨S16x64, .f32⟩
  | 95 => ⟨S16x64, .f32⟩
  | 96 => ⟨S64x256, .f32⟩
  | 97 => ⟨S16x256, .f32⟩
  | 98 => ⟨S64x256, .f32⟩
  | 99 => ⟨S16x256, .f32⟩
  | 100 => ⟨S16x256, .f32⟩
  | 101 => ⟨S1x256, .f32⟩
  | 102 => ⟨S16x256, .f32⟩
  | 103 => ⟨S16x256, .f32⟩
  | 104 => ⟨S64x256, .f32⟩
  | 105 => ⟨S16x256, .f32⟩
  | 106 => ⟨S64x256, .f32⟩
  | 107 => ⟨S16x256, .f32⟩
  | 108 => ⟨S16x256, .f32⟩
  | 109 => ⟨S1x256, .f32⟩
  | 110 => ⟨S16x256, .f32⟩
  | 111 => ⟨S16x256, .f32⟩
  | 112 => ⟨S16x256, .f32⟩
  | 113 => ⟨S16x256, .f32⟩
  | 114 => ⟨S16x256, .f32⟩
  | 115 => ⟨S_, .f32⟩
  | 116 => ⟨S16x256, .f32⟩
  | 117 => ⟨S16x256, .f32⟩
  | 118 => ⟨S_, .f32⟩
  | 119 => ⟨S16x256, .f32⟩
  | 120 => ⟨S16x256, .f32⟩
  | 121 => ⟨S16x256, .f32⟩
  | 122 => ⟨S16x256, .f32⟩
  | 123 => ⟨S16x256, .f32⟩
  | 124 => ⟨S_, .f32⟩
  | 125 => ⟨S16x256, .f32⟩
  | 126 => ⟨S16x256, .f32⟩
  | 127 => ⟨S_, .f32⟩
  | _ => ⟨S16x256x128x128, .f32⟩

abbrev hbmTy0_1 (i : Nat) : BufTy := match i % 128 with
  | 0 => ⟨S16x256, .f32⟩
  | 1 => ⟨S16x256, .f32⟩
  | 2 => ⟨S4096, .f32⟩
  | 3 => ⟨S4096, .f32⟩
  | 4 => ⟨S1x4096, .f32⟩
  | 5 => ⟨S1x4096, .f32⟩
  | 6 => ⟨S2x4096, .f32⟩
  | 7 => ⟨S2x4096x1, .f32⟩
  | 8 => ⟨S2x4096x16384, .f32⟩
  | 9 => ⟨S2x16x256x128x128, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S64x16384, .f32⟩
  | .local _ .vmem, ⟨13, _⟩ => ⟨S64x16384, .f32⟩
  | .local _ .vmem, ⟨14, _⟩ => ⟨S64x16384, .f32⟩
  | .local _ .vmem, ⟨15, _⟩ => ⟨S64x16384, .f32⟩
  | .local _ .vmem, ⟨16, _⟩ => ⟨S2x64x1, .f32⟩
  | .local _ .vmem, ⟨17, _⟩ => ⟨S2x64x1, .f32⟩
  | .local _ .vmem, ⟨18, _⟩ => ⟨S2x64x16384, .f32⟩
  | .local _ .vmem, ⟨19, _⟩ => ⟨S2x64x16384, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_7 : Ref sig .tc := ⟨.hbm, 115, rfl⟩
abbrev main_v94 : Ref sig .tc := ⟨.hbm, 116, rfl⟩
abbrev main_v95 : Ref sig .tc := ⟨.hbm, 117, rfl⟩
abbrev main_cst_8 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_9 : Ref sig .tc := ⟨.hbm, 124, rfl⟩
abbrev main_v101 : Ref sig .tc := ⟨.hbm, 125, rfl⟩
abbrev main_v102 : Ref sig .tc := ⟨.hbm, 126, rfl⟩
abbrev main_cst_10 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x64x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16x256x128x128_S4096x16384 : S16x256x128x128.ShapeCasts S4096x16384
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  reduces_S128x16384_S128 : S128x16384.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S4096x1_S16x256 : S4096x1.ShapeCasts S16x256
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  transposes_S256x64_S64x256_1_0 : S256x64.Transposes [1, 0] S64x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  shapeCasts_S16x256_S4096 : S16x256.ShapeCasts S4096
  bcast_S4096_S1x4096_1 : S4096.BroadcastsInDim S1x4096 (![1] : Fin 1 → Fin S1x4096.rank)
  concatenates_S1x4096_S1x4096_S2x4096_d0 : Shape.Concatenates [S1x4096, S1x4096] S2x4096 0
  shapeCasts_S2x4096_S2x4096x1 : S2x4096.ShapeCasts S2x4096x1
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S2x64x1_S1x64x1_0_0_0 : ∀ a, (![0, 0, 0] : Fin 3 → Nat) a + S1x64x1.size a ≤ S2x64x1.size a
  h_S1x64x1 : 0 < S1x64x1.numel
  shapeCasts_S1x64x1_S64x1 : S1x64x1.ShapeCasts S64x1
  inb_S2x64x1_S1x64x1_1_0_0 : ∀ a, (![1, 0, 0] : Fin 3 → Nat) a + S1x64x1.size a ≤ S2x64x1.size a
  broadcasts_S64x1_S64x16384 : S64x1.Broadcasts S64x16384
  inb_S2x64x16384_S1x64x16384_0_0_0 : ∀ a, (![0, 0, 0] : Fin 3 → Nat) a + S1x64x16384.size a ≤ S2x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  inb_S2x64x16384_S1x64x16384_1_0_0 : ∀ a, (![1, 0, 0] : Fin 3 → Nat) a + S1x64x16384.size a ≤ S2x64x16384.size a
  shapeCasts_S2x4096x16384_S2x16x256x128x128 : S2x4096x16384.ShapeCasts S2x16x256x128x128
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x16384.size a ≤ S4096x16384.size a
  hwx1_0 : ∀ i : grid1.Coords, EltTy.bits .f32 = 32 ∨ (Rect.block (s := S4096x16384) S64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16384.size a ≤ S4096x16384.size a
  hwx1_1 : ∀ i : grid1.Coords, EltTy.bits .f32 = 32 ∨ (Rect.block (s := S4096x16384) S64x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x64x1.size a ≤ S2x4096x1.size a
  hwx1_2 : ∀ i : grid1.Coords, EltTy.bits .f32 = 32 ∨ (Rect.block (s := S2x4096x1) S2x64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x64x16384.size a ≤ S2x4096x16384.size a
  hwx1_3 : ∀ i : grid1.Coords, EltTy.bits .f32 = 32 ∨ (Rect.block (s := S2x4096x16384) S2x64x16384.size (cc1_transform_3 i) (hinb1_3 i)).WholeWords (EltTy.packing .f32)

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

abbrev win0_0 : Pipeline.Window sig grid0 :=
  Pipeline.Window.ofSpec (Memref.whole main_v0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v110) S2x64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v111) S2x64x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩
abbrev S16x256 : Shape := ⟨2, ![16, 256]⟩
abbrev S16x64 : Shape := ⟨2, ![16, 64]⟩
abbrev S1x64 : Shape := ⟨2, ![1, 64]⟩
abbrev S1x256 : Shape := ⟨2, ![1, 256]⟩
abbrev S16x256x1x1 : Shape := ⟨4, ![16, 256, 1, 1]⟩
abbrev S1x16x256x128x128 : Shape := ⟨5, ![1, 16, 256, 128, 128]⟩
abbrev S2x16x256x128x128 : Shape := ⟨5, ![2, 16, 256, 128, 128]⟩

abbrev nBuf : Space → Nat
  | .hbm => 149
  | .vmem => 0
  | .smem => 0
  | _ => 0

abbrev hbmTy0_0 (i : Nat) : BufTy := match i % 128 with
  | 0 => ⟨S16x256x128x128, .f32⟩
  | 1 => ⟨S16x256x128x128, .f32⟩
  | 2 => ⟨S64x256, .f32⟩
  | 3 => ⟨S64x256, .f32⟩
  | 4 => ⟨S64, .f32⟩
  | 5 => ⟨S64, .f32⟩
  | 6 => ⟨S256x64, .f32⟩
  | 7 => ⟨S256x64, .f32⟩
  | 8 => ⟨S256, .f32⟩
  | 9 => ⟨S256, .f32⟩
  | 10 => ⟨S_, .f32⟩
  | 11 => ⟨S16x256, .f32⟩
  | 12 => ⟨S_, .f32⟩
  | 13 => ⟨S16x256, .f32⟩
  | 14 => ⟨S16x256, .f32⟩
  | 15 => ⟨S_, .f32⟩
  | 16 => ⟨S16x256, .f32⟩
  | 17 => ⟨S_, .f32⟩
  | 18 => ⟨S16x256, .f32⟩
  | 19 => ⟨S16x256, .f32⟩
  | 20 => ⟨S_, .f32⟩
  | 21 => ⟨S16x256, .f32⟩
  | 22 => ⟨S_, .f32⟩
  | 23 => ⟨S16x256, .f32⟩
  | 24 => ⟨S256x64, .f32⟩
  | 25 => ⟨S16x64, .f32⟩
  | 26 => ⟨S256x64, .f32⟩
  | 27 => ⟨S16x64, .f32⟩
  | 28 => ⟨S16x64, .f32⟩
  | 29 => ⟨S1x64, .f32⟩
  | 30 => ⟨S16x64, .f32⟩
  | 31 => ⟨S16x64, .f32⟩
  | 32 => ⟨S256x64, .f32⟩
  | 33 => ⟨S16x64, .f32⟩
  | 34 => ⟨S256x64, .f32⟩
  | 35 => ⟨S16x64, .f32⟩
  | 36 => ⟨S16x64, .f32⟩
  | 37 => ⟨S1x64, .f32⟩
  | 38 => ⟨S16x64, .f32⟩
  | 39 => ⟨S16x64, .f32⟩
  | 40 => ⟨S_, .f32⟩
  | 41 => ⟨S16x64, .f32⟩
  | 42 => ⟨S16x64, .i1⟩
  | 43 => ⟨S_, .f32⟩
  | 44 => ⟨S16x64, .f32⟩
  | 45 => ⟨S16x64, .f32⟩
  | 46 => ⟨S16x64, .f32⟩
  | 47 => ⟨S_, .f32⟩
  | 48 => ⟨S16x64, .f32⟩
  | 49 => ⟨S16x64, .i1⟩
  | 50 => ⟨S_, .f32⟩
  | 51 => ⟨S16x64, .f32⟩
  | 52 => ⟨S16x64, .f32⟩
  | 53 => ⟨S16x64, .f32⟩
  | 54 => ⟨S64x256, .f32⟩
  | 55 => ⟨S16x256, .f32⟩
  | 56 => ⟨S64x256, .f32⟩
  | 57 => ⟨S16x256, .f32⟩
  | 58 => ⟨S16x256, .f32⟩
  | 59 => ⟨S1x256, .f32⟩
  | 60 => ⟨S16x256, .f32⟩
  | 61 => ⟨S16x256, .f32⟩
  | 62 => ⟨S64x256, .f32⟩
  | 63 => ⟨S16x256, .f32⟩
  | 64 => ⟨S64x256, .f32⟩
  | 65 => ⟨S16x256, .f32⟩
  | 66 => ⟨S16x256, .f32⟩
  | 67 => ⟨S1x256, .f32⟩
  | 68 => ⟨S16x256, .f32⟩
  | 69 => ⟨S16x256, .f32⟩
  | 70 => ⟨S256x64, .f32⟩
  | 71 => ⟨S16x64, .f32⟩
  | 72 => ⟨S256x64, .f32⟩
  | 73 => ⟨S16x64, .f32⟩
  | 74 => ⟨S16x64, .f32⟩
  | 75 => ⟨S1x64, .f32⟩
  | 76 => ⟨S16x64, .f32⟩
  | 77 => ⟨S16x64, .f32⟩
  | 78 => ⟨S256x64, .f32⟩
  | 79 => ⟨S16x64, .f32⟩
  | 80 => ⟨S256x64, .f32⟩
  | 81 => ⟨S16x64, .f32⟩
  | 82 => ⟨S16x64, .f32⟩
  | 83 => ⟨S1x64, .f32⟩
  | 84 => ⟨S16x64, .f32⟩
  | 85 => ⟨S16x64, .f32⟩
  | 86 => ⟨S_, .f32⟩
  | 87 => ⟨S16x64, .f32⟩
  | 88 => ⟨S16x64, .i1⟩
  | 89 => ⟨S_, .f32⟩
  | 90 => ⟨S16x64, .f32⟩
  | 91 => ⟨S16x64, .f32⟩
  | 92 => ⟨S16x64, .f32⟩
  | 93 => ⟨S_, .f32⟩
  | 94 => ⟨S16x64, .f32⟩
  | 95 => ⟨S16x64, .i1⟩
  | 96 => ⟨S_, .f32⟩
  | 97 => ⟨S16x64, .f32⟩
  | 98 => ⟨S16x64, .f32⟩
  | 99 => ⟨S16x64, .f32⟩
  | 100 => ⟨S64x256, .f32⟩
  | 101 => ⟨S16x256, .f32⟩
  | 102 => ⟨S64x256, .f32⟩
  | 103 => ⟨S16x256, .f32⟩
  | 104 => ⟨S16x256, .f32⟩
  | 105 => ⟨S1x256, .f32⟩
  | 106 => ⟨S16x256, .f32⟩
  | 107 => ⟨S16x256, .f32⟩
  | 108 => ⟨S64x256, .f32⟩
  | 109 => ⟨S16x256, .f32⟩
  | 110 => ⟨S64x256, .f32⟩
  | 111 => ⟨S16x256, .f32⟩
  | 112 => ⟨S16x256, .f32⟩
  | 113 => ⟨S1x256, .f32⟩
  | 114 => ⟨S16x256, .f32⟩
  | 115 => ⟨S16x256, .f32⟩
  | 116 => ⟨S16x256, .f32⟩
  | 117 => ⟨S16x256, .f32⟩
  | 118 => ⟨S16x256, .f32⟩
  | 119 => ⟨S_, .f32⟩
  | 120 => ⟨S16x256, .f32⟩
  | 121 => ⟨S16x256, .f32⟩
  | 122 => ⟨S_, .f32⟩
  | 123 => ⟨S16x256, .f32⟩
  | 124 => ⟨S16x256, .f32⟩
  | 125 => ⟨S16x256x1x1, .f32⟩
  | 126 => ⟨S16x256, .f32⟩
  | 127 => ⟨S16x256, .f32⟩
  | _ => ⟨S16x256x128x128, .f32⟩

abbrev hbmTy0_1 (i : Nat) : BufTy := match i % 128 with
  | 0 => ⟨S16x256, .f32⟩
  | 1 => ⟨S_, .f32⟩
  | 2 => ⟨S16x256, .f32⟩
  | 3 => ⟨S16x256, .f32⟩
  | 4 => ⟨S_, .f32⟩
  | 5 => ⟨S16x256, .f32⟩
  | 6 => ⟨S16x256, .f32⟩
  | 7 => ⟨S16x256x1x1, .f32⟩
  | 8 => ⟨S16x256x128x128, .f32⟩
  | 9 => ⟨S16x256x128x128, .f32⟩
  | 10 => ⟨S16x256x128x128, .f32⟩
  | 11 => ⟨S16x256x128x128, .f32⟩
  | 12 => ⟨S16x256x128x128, .f32⟩
  | 13 => ⟨S16x256x128x128, .f32⟩
  | 14 => ⟨S16x256x128x128, .f32⟩
  | 15 => ⟨S16x256x128x128, .f32⟩
  | 16 => ⟨S16x256x128x128, .f32⟩
  | 17 => ⟨S16x256x128x128, .f32⟩
  | 18 => ⟨S1x16x256x128x128, .f32⟩
  | 19 => ⟨S1x16x256x128x128, .f32⟩
  | 20 => ⟨S2x16x256x128x128, .f32⟩
  | _ => ⟨S16x256x128x128, .f32⟩

abbrev hbmTy (i : Nat) : BufTy := match i / 128 with
  | 0 => hbmTy0_0 i
  | 1 => hbmTy0_1 i
  | _ => ⟨S16x256x128x128, .f32⟩

abbrev bufTy : (tb : Table) → Fin (tcTables nBuf tb) → BufTy
  | .hbm, ⟨i, _⟩ => hbmTy i
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_cst_14 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_15 : Ref sig .tc := ⟨.hbm, 129, rfl⟩
abbrev main_v103 : Ref sig .tc := ⟨.hbm, 130, rfl⟩
abbrev main_v104 : Ref sig .tc := ⟨.hbm, 131, rfl⟩
abbrev main_cst_16 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  transposes_S256x64_S64x256_1_0 : S256x64.Transposes [1, 0] S64x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  bcast_S16x256x128x128_S1x16x256x128x128_1_2_3_4 : S16x256x128x128.BroadcastsInDim S1x16x256x128x128 (![1, 2, 3, 4] : Fin 4 → Fin S1x16x256x128x128.rank)
  concatenates_S1x16x256x128x128_S1x16x256x128x128_S2x16x256x128x128_d0 : Shape.Concatenates [S1x16x256x128x128, S1x16x256x128x128] S2x16x256x128x128 0
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

class Facts : Prop extends Facts₀ where

variable [Facts]
-- ==== Proof.KernelRun.lean ====
/-
  The idealized kernel program's run with its result named: every weakly fair execution of @main terminates without a
  fault, the argument arrays end as launched, and the result array ends holding what the last host operation (the
  reshape of the second pass's [2, 4096, 16384] output) leaves at its buffer — the contents `W13` of the fold of @main's
  segments over the launch memory. The run itself is the launch of the two regions among the host stretches, as in the
  frame; only the post also reads the result buffer.
-/
import proofs.«122062_j31482110280381_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read in the post. -/
theorem run_out : θ_run defs (onTc (τ := τ) (main (F := F))) ⟨m, fun _ => 0, ρ⟩ (fun r => ∀ c : Dev nD,
      r.2.mem ((c.tc : Thread nD τ).loc main_v112) = W13 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v112 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Out

end
-- ==== Proof.Spec.lean ====
/-
  The mathematics of the complex channel gate, as functions of whole arrays, index by index, over the extended reals.

  Inputs are two arrays x_re, x_im over [16, 256, 128, 128] (batch, channel, height, width). Flattened to
  [4096, 16384] (row = batch * 256 + channel, column = height * 128 + width), each row is pooled two ways: its mean
  (the row's sum times 2^-14, the pattern 0x38800000) and its maximum (the fold of max from the pattern 0xFF800000 over
  the row). A small complex network turns the four pooled [16, 256] arrays into two gates g_re, g_im, one number per
  row, carried to the second pass as a [2, 4096, 1] array; the output stacks the complex product with the gate:
  plane 0 is x_re * g_re - x_im * g_im and plane 1 is x_re * g_im + x_im * g_re, row by row.
-/
import Idealize.ShloMosaic.PureOps.Ideal
import Idealize.ShloMosaic.Lib.ValueIdx

noncomputable section

namespace Cert.ChannelGate

open Idealize.ShloMosaic Idealize.ShloMosaic.ValueIdx

abbrev X4 : Shape := ⟨4, ![16, 256, 128, 128]⟩
abbrev X2 : Shape := ⟨2, ![4096, 16384]⟩
abbrev P2 : Shape := ⟨2, ![16, 256]⟩
abbrev C2 : Shape := ⟨2, ![4096, 1]⟩
abbrev G3 : Shape := ⟨3, ![2, 4096, 1]⟩
abbrev O3 : Shape := ⟨3, ![2, 4096, 16384]⟩
abbrev O5 : Shape := ⟨5, ![2, 16, 256, 128, 128]⟩

/-- The mean of each row of a [4096, 16384] array, kept as a column: the row's sum times 2^-14. -/
def rowMean (y : X2.Idx → EReal) : C2.Idx → EReal := fun i =>
  (∑ k : Fin 16384, y (ix2 (⟨(i 0).val, (i 0).isLt⟩ : Fin 4096) k)) * Ideal.ofBits .f32 0x38800000#32

/-- The maximum of each row, kept as a column: the fold of max over the row, from the pattern of minus infinity. -/
def rowMax (y : X2.Idx → EReal) : C2.Idx → EReal := fun i =>
  (Finset.univ : Finset (Fin 16384)).fold max (Ideal.ofBits .f32 0xFF800000#32)
    fun k => y (ix2 (⟨(i 0).val, (i 0).isLt⟩ : Fin 4096) k)

/-- The complex product of each row of (x_re, x_im) with that row's gate (g 0 r 0, g 1 r 0), real part in plane 0 and
    imaginary part in plane 1. -/
def gated (xr xi : X2.Idx → EReal) (g : G3.Idx → EReal) : O3.Idx → EReal := fun i =>
  if (i 0).val = 0 then
    xr (ix2 (⟨(i 1).val, (i 1).isLt⟩ : Fin 4096) (⟨(i 2).val, (i 2).isLt⟩ : Fin 16384))
        * g (ix3 (0 : Fin 2) (⟨(i 1).val, (i 1).isLt⟩ : Fin 4096) (0 : Fin 1))
      - xi (ix2 (⟨(i 1).val, (i 1).isLt⟩ : Fin 4096) (⟨(i 2).val, (i 2).isLt⟩ : Fin 16384))
        * g (ix3 (1 : Fin 2) (⟨(i 1).val, (i 1).isLt⟩ : Fin 4096) (0 : Fin 1))
  else
    xr (ix2 (⟨(i 1).val, (i 1).isLt⟩ : Fin 4096) (⟨(i 2).val, (i 2).isLt⟩ : Fin 16384))
        * g (ix3 (1 : Fin 2) (⟨(i 1).val, (i 1).isLt⟩ : Fin 4096) (0 : Fin 1))
      + xi (ix2 (⟨(i 1).val, (i 1).isLt⟩ : Fin 4096) (⟨(i 2).val, (i 2).isLt⟩ : Fin 16384))
        * g (ix3 (0 : Fin 2) (⟨(i 1).val, (i 1).isLt⟩ : Fin 4096) (0 : Fin 1))

end Cert.ChannelGate

end
-- ==== Proof.PoolRegion.lean ====
/-
  The first pass (the pooling kernel) read as values: its four output columns [4096, 1] after the run, each as ONE
  function of the two flattened input arrays the region finds. The grid has 32 points; point t stages rows
  128 t … 128 t + 127 of each [4096, 16384] input whole, and writes back rows 128 t … 128 t + 127 of each column. The
  body's lane sum over the 16384 columns is the row's sum, its lane maximum the fold of max over the row; so the
  columns end holding the rows' means and maxima.
-/
import proofs.«122062_j31482110280381_2_alg».proof.Proof.Gen.KernelIdeal.Frame
import proofs.«122062_j31482110280381_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolV

open Cert.KernelIdeal Cert.KernelIdeal.Gen Cert.ChannelGate
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window of the first pass sits, at point t, at block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The lane sum of a [128, 16384] block, kept as a column, at row r: the sum of the row. -/
theorem lane_sum (src : FVec Ideal S128x16384 .f32) (h : S128x16384.Reduces [1] S128) (hφ : FKind.Formats .f32)
    (hacc : (0x00000000#32 : BitVec 32) = FKind.add.neutral .f32 hφ) (hc : S128.ShapeCasts S128x1) (r : Fin 128) :
    shapeCast S128x1 (multiReduction .add [1] S128 src 0x00000000#32 h hφ hacc) hc (ix2 r (0 : Fin 1))
      = ∑ k : Fin 16384, src (ix2 r k) := by
  refine (shapeCast_apply _ hc (ix2 r (0 : Fin 1)) (ix1 r) ?_).trans ?_
  · rw [Shape.rowMajor_val_one, Shape.rowMajor_val_two]; show r.val = r.val * 1 + 0; omega
  refine (Ideal.multiReduction_add_single src 0x00000000#32 h hφ hacc (ix1 r)).trans ?_
  show ∑ k : Fin 16384, src (h.lift (ix1 r) k) = _
  refine Finset.sum_congr rfl fun k _ => congrArg src ?_
  funext a; apply Fin.ext
  match a with
  | ⟨0, _⟩ => rfl
  | ⟨1, _⟩ => rfl

/-- The lane maximum of a [128, 16384] block, kept as a column, at row r: the fold of max over the row from the
    accumulator's value. -/
theorem lane_max (src : FVec Ideal S128x16384 .f32) (h : S128x16384.Reduces [1] S128) (hφ : FKind.Formats .f32)
    (hacc : (0xFF800000#32 : BitVec 32) = FKind.maximumf.neutral .f32 hφ) (hc : S128.ShapeCasts S128x1) (r : Fin 128) :
    shapeCast S128x1 (multiReduction .maximumf [1] S128 src 0xFF800000#32 h hφ hacc) hc (ix2 r (0 : Fin 1))
      = (Finset.univ : Finset (Fin 16384)).fold max (Ideal.ofBits .f32 0xFF800000#32) fun k => src (ix2 r k) := by
  refine (shapeCast_apply _ hc (ix2 r (0 : Fin 1)) (ix1 r) ?_).trans ?_
  · rw [Shape.rowMajor_val_one, Shape.rowMajor_val_two]; show r.val = r.val * 1 + 0; omega
  refine (Ideal.multiReduction_maximumf_single src 0xFF800000#32 h hφ hacc (ix1 r)).trans ?_
  show (Finset.univ : Finset (Fin 16384)).fold max (Ideal.ofBits .f32 0xFF800000#32) (src ∘ h.lift (ix1 r)) = _
  refine congrArg (Finset.fold max (Ideal.ofBits .f32 0xFF800000#32) · Finset.univ) (funext fun k => congrArg src ?_)
  funext a; apply Fin.ext
  match a with
  | ⟨0, _⟩ => rfl
  | ⟨1, _⟩ => rfl

/-- The body's four stored values, as the operations the kernel spells. -/
theorem pay3_eq (x0 : Vec Ideal S128x16384 .f32) : k0_pay3 (F := Ideal) x0
    = mulf (shapeCast S128x1 (multiReduction .add [1] S128 (shapeCast S128x16384 x0 shapeCasts_S128x16384_S128x16384)
        0x00000000#32 reduces_S128x16384_S128 (.inl rfl) rfl) shapeCasts_S128_S128x1)
      (broadcast S128x1 (Scalar.ofBits .f32 0x38800000#32)) := rfl
theorem pay4_eq (x1 : Vec Ideal S128x16384 .f32) : k0_pay4 (F := Ideal) x1
    = mulf (shapeCast S128x1 (multiReduction .add [1] S128 (shapeCast S128x16384 x1 shapeCasts_S128x16384_S128x16384)
        0x00000000#32 reduces_S128x16384_S128 (.inl rfl) rfl) shapeCasts_S128_S128x1)
      (broadcast S128x1 (Scalar.ofBits .f32 0x38800000#32)) := rfl
theorem pay5_eq (x0 : Vec Ideal S128x16384 .f32) : k0_pay5 (F := Ideal) x0
    = shapeCast S128x1 (multiReduction .maximumf [1] S128 (shapeCast S128x16384 x0 shapeCasts_S128x16384_S128x16384)
        0xFF800000#32 reduces_S128x16384_S128 (.inl rfl) rfl) shapeCasts_S128_S128x1 := rfl
theorem pay6_eq (x1 : Vec Ideal S128x16384 .f32) : k0_pay6 (F := Ideal) x1
    = shapeCast S128x1 (multiReduction .maximumf [1] S128 (shapeCast S128x16384 x1 shapeCasts_S128x16384_S128x16384)
        0xFF800000#32 reduces_S128x16384_S128 (.inl rfl) rfl) shapeCasts_S128_S128x1 := rfl

/-- The first stored value at row r: the row's sum of the first input block, times 2^-14. -/
theorem pay3_apply (x0 : Vec Ideal S128x16384 .f32) (r : Fin 128) :
    k0_pay3 (F := Ideal) x0 (ix2 r (0 : Fin 1)) = (∑ k : Fin 16384, x0 (ix2 r k)) * Ideal.ofBits .f32 0x38800000#32 := by
  rw [pay3_eq, shapeCast_self]
  exact congrArg (· * Ideal.ofBits .f32 0x38800000#32) (lane_sum x0 _ _ _ _ r)

/-- The second stored value at row r: the row's sum of the second input block, times 2^-14. -/
theorem pay4_apply (x1 : Vec Ideal S128x16384 .f32) (r : Fin 128) :
    k0_pay4 (F := Ideal) x1 (ix2 r (0 : Fin 1)) = (∑ k : Fin 16384, x1 (ix2 r k)) * Ideal.ofBits .f32 0x38800000#32 := by
  rw [pay4_eq, shapeCast_self]
  exact congrArg (· * Ideal.ofBits .f32 0x38800000#32) (lane_sum x1 _ _ _ _ r)

/-- The third stored value at row r: the maximum over the row of the first input block. -/
theorem pay5_apply (x0 : Vec Ideal S128x16384 .f32) (r : Fin 128) :
    k0_pay5 (F := Ideal) x0 (ix2 r (0 : Fin 1))
      = (Finset.univ : Finset (Fin 16384)).fold max (Ideal.ofBits .f32 0xFF800000#32) fun k => x0 (ix2 r k) := by
  rw [pay5_eq, shapeCast_self]
  exact lane_max x0 _ _ _ _ r

/-- The fourth stored value at row r: the maximum over the row of the second input block. -/
theorem pay6_apply (x1 : Vec Ideal S128x16384 .f32) (r : Fin 128) :
    k0_pay6 (F := Ideal) x1 (ix2 r (0 : Fin 1))
      = (Finset.univ : Finset (Fin 16384)).fold max (Ideal.ofBits .f32 0xFF800000#32) fun k => x1 (ix2 r k) := by
  rw [pay6_eq, shapeCast_self]
  exact lane_max x1 _ _ _ _ r

-- the columns' functions are compared by name below, never by unfolding their sums and folds over 16384 columns
attribute [local irreducible] rowMean rowMax

/-- A block's stored column against the whole array's: if the block holds rows 128 T … 128 T + 127 of `A`, the stored
    value at row r of the block is `rowMean` of `A` at row 128 T + r. -/
theorem rowMean_block2 (A : S4096x16384.Idx → EReal) (x : Vec Ideal S128x16384 .f32) (T : Nat) (y : S128x1.Idx) (i : S4096x1.Idx)
    (hx : ∀ (r : Fin 128) (k : Fin 16384) (R : Fin 4096), R.val = T * 128 + r.val → x (ix2 r k) = A (ix2 R k))
    (hi : (i 0).val = T * 128 + (y 0).val) :
    k0_pay3 (F := Ideal) x y = rowMean A i := by
  obtain ⟨r, z, rfl⟩ : ∃ (r : Fin 128) (z : Fin 1), y = ix2 r z := ⟨y 0, y 1, eq_ix2 y⟩
  obtain rfl : z = 0 := Subsingleton.elim _ _
  refine (pay3_apply x r).trans ?_
  unfold rowMean
  exact congrArg (· * Ideal.ofBits .f32 0x38800000#32) (Finset.sum_congr rfl fun k _ => hx r k ⟨(i 0).val, (i 0).isLt⟩ hi)

/-- What point t writes back through output window 2 is block t of `rowMean` of the first flattened input. -/
theorem flushed2_eq (c : Dev nD) (t : Fin cfg0.N) :
    (dat0 V c).flushed 2 t = ((cfg0.win 2).blk t).view.read (Elt Ideal) (rowMean (V c main_v0)) := by
  show (cfg0.win 2).cut (grid0.coords t) ((dat0 V c).after 2 t) = _
  rw [after0_2]
  unfold out0_2
  rw [View.canon_unit_zero hz]
  simp only [View.ld_unit_zero (S := S128x16384) hz]
  obtain ⟨e00, e01, e10, e11, e20, e21, e30, e31, e40, e41, e50, e51⟩ := idx_facts t
  funext y
  show k0_pay3 (F := Ideal) (iblk0 V c 0 t) y = rowMean (V c main_v0) (((cfg0.win 2).blk t).view.emb y)
  refine rowMean_block2 (V c main_v0) (iblk0 V c 0 t) t.val y _ (fun r k R hR => ?_) ?_
  · show V c main_v0 (((cfg0.win 0).blk t).view.emb (ix2 r k)) = V c main_v0 (ix2 R k)
    refine congrArg (V c main_v0) (funext fun a => Fin.ext ?_)
    match a with
    | ⟨0, _⟩ => show win0_0.index t (0 : Fin 2) * 128 + 1 * r.val = R.val; omega
    | ⟨1, _⟩ => show win0_0.index t (1 : Fin 2) * 16384 + 1 * k.val = k.val; omega
  · show win0_2.index t (0 : Fin 2) * 128 + 1 * (y 0).val = t.val * 128 + (y 0).val; omega

/-- An index of the column is in point t's block iff each coordinate is in the block's range on its axis. -/
theorem mem_blk2 (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2_0).slice (win0_2.rect t)).set ↔ _
  rw [View.set_slice_whole, Rect.mem_set_unit]
  exact Iff.rfl

/-- Every row of the column is in some point's block: row R in point R / 128's. -/
theorem cover2 (i : S4096x1.Idx) : ∃ t : Fin cfg0.N, (cfg0.win 2).flush t = true ∧ i ∈ ((cfg0.win 2).blk t).view.set := by
  have h0 : (i 0).val < 4096 := (i 0).isLt
  have h1 : (i 1).val < 1 := (i 1).isLt
  have hN : cfg0.N = 32 := N_0
  refine ⟨⟨(i 0).val / 128, by rw [hN]; omega⟩, flush0_2 _, ?_⟩
  obtain ⟨e00, e01, e10, e11, e20, e21, e30, e31, e40, e41, e50, e51⟩ := idx_facts ⟨(i 0).val / 128, by rw [hN]; omega⟩
  rw [mem_blk2]
  intro a
  match a with
  | ⟨0, _⟩ => show win0_2.index _ (0 : Fin 2) * 128 ≤ (i 0).val ∧ (i 0).val < win0_2.index _ (0 : Fin 2) * 128 + 128; rw [e20]; show (i 0).val / 128 * 128 ≤ (i 0).val ∧ (i 0).val < (i 0).val / 128 * 128 + 128; omega
  | ⟨1, _⟩ => show win0_2.index _ (1 : Fin 2) * 1 ≤ (i 1).val ∧ (i 1).val < win0_2.index _ (1 : Fin 2) * 1 + 1; rw [e21]; omega

/-- THE COLUMN after the first pass: `rowMean` of the first flattened input as the region finds it. -/
theorem final2 (c : Dev nD) : (dat0 V c).arrAt 2 cfg0.N = rowMean (V c main_v0) :=
  (dat0 V c).arrAt_eq_of_cover 2 (rowMean (V c main_v0)) (fun t _ => flushed2_eq V c t) cover2

/-- A block's stored column against the whole array's: if the block holds rows 128 T … 128 T + 127 of `A`, the stored
    value at row r of the block is `rowMean` of `A` at row 128 T + r. -/
theorem rowMean_block3 (A : S4096x16384.Idx → EReal) (x : Vec Ideal S128x16384 .f32) (T : Nat) (y : S128x1.Idx) (i : S4096x1.Idx)
    (hx : ∀ (r : Fin 128) (k : Fin 16384) (R : Fin 4096), R.val = T * 128 + r.val → x (ix2 r k) = A (ix2 R k))
    (hi : (i 0).val = T * 128 + (y 0).val) :
    k0_pay4 (F := Ideal) x y = rowMean A i := by
  obtain ⟨r, z, rfl⟩ : ∃ (r : Fin 128) (z : Fin 1), y = ix2 r z := ⟨y 0, y 1, eq_ix2 y⟩
  obtain rfl : z = 0 := Subsingleton.elim _ _
  refine (pay4_apply x r).trans ?_
  unfold rowMean
  exact congrArg (· * Ideal.ofBits .f32 0x38800000#32) (Finset.sum_congr rfl fun k _ => hx r k ⟨(i 0).val, (i 0).isLt⟩ hi)

/-- What point t writes back through output window 3 is block t of `rowMean` of the second flattened input. -/
theorem flushed3_eq (c : Dev nD) (t : Fin cfg0.N) :
    (dat0 V c).flushed 3 t = ((cfg0.win 3).blk t).view.read (Elt Ideal) (rowMean (V c main_v1)) := by
  show (cfg0.win 3).cut (grid0.coords t) ((dat0 V c).after 3 t) = _
  rw [after0_3]
  unfold out0_3
  rw [View.canon_unit_zero hz]
  simp only [View.ld_unit_zero (S := S128x16384) hz]
  obtain ⟨e00, e01, e10, e11, e20, e21, e30, e31, e40, e41, e50, e51⟩ := idx_facts t
  funext y
  show k0_pay4 (F := Ideal) (iblk0 V c 1 t) y = rowMean (V c main_v1) (((cfg0.win 3).blk t).view.emb y)
  refine rowMean_block3 (V c main_v1) (iblk0 V c 1 t) t.val y _ (fun r k R hR => ?_) ?_
  · show V c main_v1 (((cfg0.win 1).blk t).view.emb (ix2 r k)) = V c main_v1 (ix2 R k)
    refine congrArg (V c main_v1) (funext fun a => Fin.ext ?_)
    match a with
    | ⟨0, _⟩ => show win0_1.index t (0 : Fin 2) * 128 + 1 * r.val = R.val; omega
    | ⟨1, _⟩ => show win0_1.index t (1 : Fin 2) * 16384 + 1 * k.val = k.val; omega
  · show win0_3.index t (0 : Fin 2) * 128 + 1 * (y 0).val = t.val * 128 + (y 0).val; omega

/-- An index of the column is in point t's block iff each coordinate is in the block's range on its axis. -/
theorem mem_blk3 (t : Fin cfg0.N) (i : S4096x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v2_1).slice (win0_3.rect t)).set ↔ _
  rw [View.set_slice_whole, Rect.mem_set_unit]
  exact Iff.rfl

/-- Every row of the column is in some point's block: row R in point R / 128's. -/
theorem cover3 (i : S4096x1.Idx) : ∃ t : Fin cfg0.N, (cfg0.win 3).flush t = true ∧ i ∈ ((cfg0.win 3).blk t).view.set := by
  have h0 : (i 0).val < 4096 := (i 0).isLt
  have h1 : (i 1).val < 1 := (i 1).isLt
  have hN : cfg0.N = 32 := N_0
  refine ⟨⟨(i 0).val / 128, by rw [hN]; omega⟩, flush0_3 _, ?_⟩
  obtain ⟨e00, e01, e10, e11, e20, e21, e30, e31, e40, e41, e50, e51⟩ := idx_facts ⟨(i 0).val / 128, by rw [hN]; omega⟩
  rw [mem_blk3]
  intro a
  match a with
  | ⟨0, _⟩ => show win0_3.index _ (0 : Fin 2) * 128 ≤ (i 0).val ∧ (i 0).val < win0_3.index _ (0 : Fin 2) * 128 + 128; rw [e30]; show (i 0).val / 128 * 128 ≤ (i 0).val ∧ (i 0).val < (i 0).val / 128 * 128 + 128; omega
  | ⟨1, _⟩ => show win0_3.index _ (1 : Fin 2) * 1 ≤ (i 1).val ∧ (i 1).val < win0_3.index _ (1 : Fin 2) * 1 + 1; rw [e31]; omega

/-- THE COLUMN after the first pass: `rowMean` of the second flattened input as the region finds it. -/
theorem final3 (c : Dev nD) : (dat0 V c).arrAt 3 cfg0.N = rowMean (V c main_v1) :=
  (dat0 V c).arrAt_eq_of_cover 3 (rowMean (V c main_v1)) (fun t _ => flushed3_eq V c t) cover3

/-- A block's stored column against the whole array's: if the block holds rows 128 T … 128 T + 127 of `A`, the stored
    value at row r of the block is `rowMax` of `A` at row 128 T + r. -/
theorem rowMax_block4 (A : S4096x16384.Idx → EReal) (x : Vec Ideal S128x16384 .f32) (T : Nat) (y : S128x1.Idx) (i : S4096x1.Idx)
    (hx : ∀ (r : Fin 128) (k : Fin 16384) (R : Fin 4096), R.val = T * 128 + r.val → x (ix2 r k) = A (ix2 R k))
    (hi : (i 0).val = T * 128 + (y 0).val) :
    k0_pay5 (F := Ideal) x y = rowMax A i := by
  obtain ⟨r, z, rfl⟩ : ∃ (r : Fin 128) (z : Fin 1), y = ix2 r z := ⟨y 0, y 1, eq_ix2 y⟩
  obtain rfl : z = 0 := Subsingleton.elim _ _
  refine (pay5_apply x r).trans ?_
  unfold rowMax
  exact congrArg (Finset.fold max (Ideal.ofBits .f32 0xFF800000#32) · Finset.univ) (funext fun k => hx r k ⟨(i 0).val, (i 0).isLt⟩ hi)

/-- What point t writes back through output window 4 is block t of `rowMax` of the first flattened input. -/
theorem flushed4_eq (c : Dev nD) (t : Fin cfg0.N) :
    (dat0 V c).flushed 4 t = ((cfg0.win 4).blk t).view.read (Elt Ideal) (rowMax (V c main_v0)) := by
  show (cfg0.win 4).cut (grid0.coords t) ((dat0 V c).after 4 t) = _
  rw [after0_4]
  unfold out0_4
  rw [View.canon_unit_zero hz]
  simp only [View.ld_unit_zero (S := S128x16384) hz]
  obtain ⟨e00, e01, e10, e11, e20, e21, e30, e31, e40, e41, e50, e51⟩ := idx_facts t
  funext y
  show k0_pay5 (F := Ideal) (iblk0 V c 0 t) y = rowMax (V c main_v0) (((cfg0.win 4).blk t).view.emb y)
  refine rowMax_block4 (V c main_v0) (iblk0 V c 0 t) t.val y _ (fun r k R hR => ?_) ?_
  · show V c main_v0 (((cfg0.win 0).blk t).view.emb (ix2 r k)) = V c main_v0 (ix2 R k)
    refine congrArg (V c main_v0) (funext fun a => Fin.ext ?_)
    match a with
    | ⟨0, _⟩ => show win0_0.index t (0 : Fin 2) * 128 + 1 * r.val = R.val; omega
    | ⟨1, _⟩ => show win0_0.index t (1 : Fin 2) * 16384 + 1 * k.val = k.val; omega
  · show win0_4.index t (0 : Fin 2) * 128 + 1 * (y 0).val = t.val * 128 + (y 0).val; omega

/-- An index of the column is in point t's block iff each coordinate is in the block's range on its axis. -/
theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v2_2).slice (win0_4.rect t)).set ↔ _
  rw [View.set_slice_whole, Rect.mem_set_unit]
  exact Iff.rfl

/-- Every row of the column is in some point's block: row R in point R / 128's. -/
theorem cover4 (i : S4096x1.Idx) : ∃ t : Fin cfg0.N, (cfg0.win 4).flush t = true ∧ i ∈ ((cfg0.win 4).blk t).view.set := by
  have h0 : (i 0).val < 4096 := (i 0).isLt
  have h1 : (i 1).val < 1 := (i 1).isLt
  have hN : cfg0.N = 32 := N_0
  refine ⟨⟨(i 0).val / 128, by rw [hN]; omega⟩, flush0_4 _, ?_⟩
  obtain ⟨e00, e01, e10, e11, e20, e21, e30, e31, e40, e41, e50, e51⟩ := idx_facts ⟨(i 0).val / 128, by rw [hN]; omega⟩
  rw [mem_blk4]
  intro a
  match a with
  | ⟨0, _⟩ => show win0_4.index _ (0 : Fin 2) * 128 ≤ (i 0).val ∧ (i 0).val < win0_4.index _ (0 : Fin 2) * 128 + 128; rw [e40]; show (i 0).val / 128 * 128 ≤ (i 0).val ∧ (i 0).val < (i 0).val / 128 * 128 + 128; omega
  | ⟨1, _⟩ => show win0_4.index _ (1 : Fin 2) * 1 ≤ (i 1).val ∧ (i 1).val < win0_4.index _ (1 : Fin 2) * 1 + 1; rw [e41]; omega

/-- THE COLUMN after the first pass: `rowMax` of the first flattened input as the region finds it. -/
theorem final4 (c : Dev nD) : (dat0 V c).arrAt 4 cfg0.N = rowMax (V c main_v0) :=
  (dat0 V c).arrAt_eq_of_cover 4 (rowMax (V c main_v0)) (fun t _ => flushed4_eq V c t) cover4

/-- A block's stored column against the whole array's: if the block holds rows 128 T … 128 T + 127 of `A`, the stored
    value at row r of the block is `rowMax` of `A` at row 128 T + r. -/
theorem rowMax_block5 (A : S4096x16384.Idx → EReal) (x : Vec Ideal S128x16384 .f32) (T : Nat) (y : S128x1.Idx) (i : S4096x1.Idx)
    (hx : ∀ (r : Fin 128) (k : Fin 16384) (R : Fin 4096), R.val = T * 128 + r.val → x (ix2 r k) = A (ix2 R k))
    (hi : (i 0).val = T * 128 + (y 0).val) :
    k0_pay6 (F := Ideal) x y = rowMax A i := by
  obtain ⟨r, z, rfl⟩ : ∃ (r : Fin 128) (z : Fin 1), y = ix2 r z := ⟨y 0, y 1, eq_ix2 y⟩
  obtain rfl : z = 0 := Subsingleton.elim _ _
  refine (pay6_apply x r).trans ?_
  unfold rowMax
  exact congrArg (Finset.fold max (Ideal.ofBits .f32 0xFF800000#32) · Finset.univ) (funext fun k => hx r k ⟨(i 0).val, (i 0).isLt⟩ hi)

/-- What point t writes back through output window 5 is block t of `rowMax` of the second flattened input. -/
theorem flushed5_eq (c : Dev nD) (t : Fin cfg0.N) :
    (dat0 V c).flushed 5 t = ((cfg0.win 5).blk t).view.read (Elt Ideal) (rowMax (V c main_v1)) := by
  show (cfg0.win 5).cut (grid0.coords t) ((dat0 V c).after 5 t) = _
  rw [after0_5]
  unfold out0_5
  rw [View.canon_unit_zero hz]
  simp only [View.ld_unit_zero (S := S128x16384) hz]
  obtain ⟨e00, e01, e10, e11, e20, e21, e30, e31, e40, e41, e50, e51⟩ := idx_facts t
  funext y
  show k0_pay6 (F := Ideal) (iblk0 V c 1 t) y = rowMax (V c main_v1) (((cfg0.win 5).blk t).view.emb y)
  refine rowMax_block5 (V c main_v1) (iblk0 V c 1 t) t.val y _ (fun r k R hR => ?_) ?_
  · show V c main_v1 (((cfg0.win 1).blk t).view.emb (ix2 r k)) = V c main_v1 (ix2 R k)
    refine congrArg (V c main_v1) (funext fun a => Fin.ext ?_)
    match a with
    | ⟨0, _⟩ => show win0_1.index t (0 : Fin 2) * 128 + 1 * r.val = R.val; omega
    | ⟨1, _⟩ => show win0_1.index t (1 : Fin 2) * 16384 + 1 * k.val = k.val; omega
  · show win0_5.index t (0 : Fin 2) * 128 + 1 * (y 0).val = t.val * 128 + (y 0).val; omega

/-- An index of the column is in point t's block iff each coordinate is in the block's range on its axis. -/
theorem mem_blk5 (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v2_3).slice (win0_5.rect t)).set ↔ _
  rw [View.set_slice_whole, Rect.mem_set_unit]
  exact Iff.rfl

/-- Every row of the column is in some point's block: row R in point R / 128's. -/
theorem cover5 (i : S4096x1.Idx) : ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 32 := N_0
  refine ⟨⟨(i 0).val / 128, by rw [hN]; omega⟩, flush0_5 _, ?_⟩
  obtain ⟨e00, e01, e10, e11, e20, e21, e30, e31, e40, e41, e50, e51⟩ := idx_facts ⟨(i 0).val / 128, by rw [hN]; omega⟩
  rw [mem_blk5]
  intro a
  match a with
  | ⟨0, _⟩ => show win0_5.index _ (0 : Fin 2) * 128 ≤ (i 0).val ∧ (i 0).val < win0_5.index _ (0 : Fin 2) * 128 + 128; rw [e50]; show (i 0).val / 128 * 128 ≤ (i 0).val ∧ (i 0).val < (i 0).val / 128 * 128 + 128; omega
  | ⟨1, _⟩ => show win0_5.index _ (1 : Fin 2) * 1 ≤ (i 1).val ∧ (i 1).val < win0_5.index _ (1 : Fin 2) * 1 + 1; rw [e51]; omega

/-- THE COLUMN after the first pass: `rowMax` of the second flattened input as the region finds it. -/
theorem final5 (c : Dev nD) : (dat0 V c).arrAt 5 cfg0.N = rowMax (V c main_v1) :=
  (dat0 V c).arrAt_eq_of_cover 5 (rowMax (V c main_v1)) (fun t _ => flushed5_eq V c t) cover5

end Cert.KernelIdeal.PoolV

end
-- ==== Proof.GateRegion.lean ====
/-
  The second pass (the gate kernel) read as a value: its output array [2, 4096, 16384] after the run, as ONE function
  of the three arrays the region finds. The grid has 64 points; point t stages rows 64 t … 64 t + 63 of each
  [4096, 16384] input whole and rows 64 t … 64 t + 63 of both planes of the [2, 4096, 1] gate array, and writes back
  rows 64 t … 64 t + 63 of both planes of the output. The body multiplies each row of the complex pair (x_re, x_im) by
  that row's complex gate (g_re, g_im), repeated along the 16384 columns: plane 0 holds x_re * g_re - x_im * g_im and
  plane 1 holds x_re * g_im + x_im * g_re. The 64 blocks tile the output, so it ends holding the row-by-row product.
-/
import proofs.«122062_j31482110280381_2_alg».proof.Proof.Gen.KernelIdeal.Frame
import proofs.«122062_j31482110280381_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.GateV

open Cert.KernelIdeal Cert.KernelIdeal.Gen Cert.ChannelGate
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- At point t the two input windows sit at block (t, 0); the gate window and the output window at block (0, t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- The body's two stored values, as the operations the kernel spells. -/
theorem pay5_eq (x0 x1 : Vec Ideal S64x16384 .f32) (g0 g1 : Vec Ideal S1x64x1 .f32) : k1_pay5 (F := Ideal) x0 x1 g0 g1
    = shapeCast S1x64x16384
        (subf (mulf (shapeCast S64x16384 x0 shapeCasts_S64x16384_S64x16384)
                (broadcastTo S64x16384 (shapeCast S64x1 g0 shapeCasts_S1x64x1_S64x1) broadcasts_S64x1_S64x16384))
              (mulf (shapeCast S64x16384 x1 shapeCasts_S64x16384_S64x16384)
                (broadcastTo S64x16384 (shapeCast S64x1 g1 shapeCasts_S1x64x1_S64x1) broadcasts_S64x1_S64x16384)))
        shapeCasts_S64x16384_S1x64x16384 := rfl
theorem pay6_eq (x0 x1 : Vec Ideal S64x16384 .f32) (g0 g1 : Vec Ideal S1x64x1 .f32) : k1_pay6 (F := Ideal) x0 x1 g0 g1
    = shapeCast S1x64x16384
        (addf (mulf (shapeCast S64x16384 x0 shapeCasts_S64x16384_S64x16384)
                (broadcastTo S64x16384 (shapeCast S64x1 g1 shapeCasts_S1x64x1_S64x1) broadcasts_S64x1_S64x16384))
              (mulf (shapeCast S64x16384 x1 shapeCasts_S64x16384_S64x16384)
                (broadcastTo S64x16384 (shapeCast S64x1 g0 shapeCasts_S1x64x1_S64x1) broadcasts_S64x1_S64x16384)))
        shapeCasts_S64x16384_S1x64x16384 := rfl

/-- A [1, 64, 1] gate block, read as a [64, 1] column and repeated along the 16384 columns, at (r, k): the block's entry
    of row r. -/
theorem gate_bcast_apply (g : Vec Ideal S1x64x1 .f32) (r : Fin 64) (k : Fin 16384) :
    broadcastTo S64x16384 (shapeCast S64x1 g shapeCasts_S1x64x1_S64x1) broadcasts_S64x1_S64x16384 (ix2 r k)
      = g (ix3 (0 : Fin 1) r (0 : Fin 1)) := by
  refine (broadcastTo_apply _ broadcasts_S64x1_S64x16384 (ix2 r k) (ix2 r (0 : Fin 1)) fun a => ?_).trans ?_
  · match a with
    | ⟨0, _⟩ => rfl
    | ⟨1, _⟩ => rfl
  · refine shapeCast_apply g shapeCasts_S1x64x1_S64x1 (ix2 r (0 : Fin 1)) (ix3 (0 : Fin 1) r (0 : Fin 1)) ?_
    rw [Shape.rowMajor_val_three, Shape.rowMajor_val_two]
    show (0 * 64 + r.val) * 1 + 0 = r.val * 1 + 0
    omega

/-- The first stored value at (0, r, k): the real part of the product of the block's entry with the row's gate. -/
theorem pay5_apply (x0 x1 : Vec Ideal S64x16384 .f32) (g0 g1 : Vec Ideal S1x64x1 .f32) (r : Fin 64) (k : Fin 16384) :
    k1_pay5 (F := Ideal) x0 x1 g0 g1 (ix3 (0 : Fin 1) r k)
      = x0 (ix2 r k) * g0 (ix3 (0 : Fin 1) r (0 : Fin 1)) - x1 (ix2 r k) * g1 (ix3 (0 : Fin 1) r (0 : Fin 1)) := by
  rw [pay5_eq, shapeCast_self, shapeCast_self]
  refine (shapeCast_apply _ shapeCasts_S64x16384_S1x64x16384 (ix3 (0 : Fin 1) r k) (ix2 r k) ?_).trans ?_
  · rw [Shape.rowMajor_val_three, Shape.rowMajor_val_two]
    show r.val * 16384 + k.val = (0 * 64 + r.val) * 16384 + k.val
    omega
  · show x0 (ix2 r k) * _ - x1 (ix2 r k) * _ = _
    rw [gate_bcast_apply g0 r k, gate_bcast_apply g1 r k]

/-- The second stored value at (0, r, k): the imaginary part of the same product. -/
theorem pay6_apply (x0 x1 : Vec Ideal S64x16384 .f32) (g0 g1 : Vec Ideal S1x64x1 .f32) (r : Fin 64) (k : Fin 16384) :
    k1_pay6 (F := Ideal) x0 x1 g0 g1 (ix3 (0 : Fin 1) r k)
      = x0 (ix2 r k) * g1 (ix3 (0 : Fin 1) r (0 : Fin 1)) + x1 (ix2 r k) * g0 (ix3 (0 : Fin 1) r (0 : Fin 1)) := by
  rw [pay6_eq, shapeCast_self, shapeCast_self]
  refine (shapeCast_apply _ shapeCasts_S64x16384_S1x64x16384 (ix3 (0 : Fin 1) r k) (ix2 r k) ?_).trans ?_
  · rw [Shape.rowMajor_val_three, Shape.rowMajor_val_two]
    show r.val * 16384 + k.val = (0 * 64 + r.val) * 16384 + k.val
    omega
  · show x0 (ix2 r k) * _ + x1 (ix2 r k) * _ = _
    rw [gate_bcast_apply g1 r k, gate_bcast_apply g0 r k]

/-- The complex product of each row of a staged pair of [64, 16384] blocks with that row's entries of the staged
    [2, 64, 1] gate block, real part in plane 0 and imaginary part in plane 1: what the block should end holding. -/
def gatedBlk (x0 x1 : S64x16384.Idx → EReal) (x2 : S2x64x1.Idx → EReal) : S2x64x16384.Idx → EReal := fun y =>
  if (y 0).val = 0 then
    x0 (ix2 (⟨(y 1).val, (y 1).isLt⟩ : Fin 64) (⟨(y 2).val, (y 2).isLt⟩ : Fin 16384))
        * x2 (ix3 (0 : Fin 2) (⟨(y 1).val, (y 1).isLt⟩ : Fin 64) (0 : Fin 1))
      - x1 (ix2 (⟨(y 1).val, (y 1).isLt⟩ : Fin 64) (⟨(y 2).val, (y 2).isLt⟩ : Fin 16384))
        * x2 (ix3 (1 : Fin 2) (⟨(y 1).val, (y 1).isLt⟩ : Fin 64) (0 : Fin 1))
  else
    x0 (ix2 (⟨(y 1).val, (y 1).isLt⟩ : Fin 64) (⟨(y 2).val, (y 2).isLt⟩ : Fin 16384))
        * x2 (ix3 (1 : Fin 2) (⟨(y 1).val, (y 1).isLt⟩ : Fin 64) (0 : Fin 1))
      + x1 (ix2 (⟨(y 1).val, (y 1).isLt⟩ : Fin 64) (⟨(y 2).val, (y 2).isLt⟩ : Fin 16384))
        * x2 (ix3 (0 : Fin 2) (⟨(y 1).val, (y 1).isLt⟩ : Fin 64) (0 : Fin 1))

/-- The block's product at an index of plane 0, row r, column k. -/
theorem gatedBlk_plane0 (x0 x1 : S64x16384.Idx → EReal) (x2 : S2x64x1.Idx → EReal) (y : S2x64x16384.Idx) (r : Fin 64)
    (k : Fin 16384) (h0 : (y 0).val = 0) (h1 : (y 1).val = r.val) (h2 : (y 2).val = k.val) :
    gatedBlk x0 x1 x2 y = x0 (ix2 r k) * x2 (ix3 (0 : Fin 2) r (0 : Fin 1)) - x1 (ix2 r k) * x2 (ix3 (1 : Fin 2) r (0 : Fin 1)) := by
  unfold gatedBlk
  rw [if_pos h0]
  have e1 : (⟨(y 1).val, (y 1).isLt⟩ : Fin 64) = r := Fin.ext h1
  have e2 : (⟨(y 2).val, (y 2).isLt⟩ : Fin 16384) = k := Fin.ext h2
  rw [e1, e2]

/-- The block's product at an index of plane 1, row r, column k. -/
theorem gatedBlk_plane1 (x0 x1 : S64x16384.Idx → EReal) (x2 : S2x64x1.Idx → EReal) (y : S2x64x16384.Idx) (r : Fin 64)
    (k : Fin 16384) (h0 : (y 0).val = 1) (h1 : (y 1).val = r.val) (h2 : (y 2).val = k.val) :
    gatedBlk x0 x1 x2 y = x0 (ix2 r k) * x2 (ix3 (1 : Fin 2) r (0 : Fin 1)) + x1 (ix2 r k) * x2 (ix3 (0 : Fin 2) r (0 : Fin 1)) := by
  unfold gatedBlk
  rw [if_neg (by omega)]
  have e1 : (⟨(y 1).val, (y 1).isLt⟩ : Fin 64) = r := Fin.ext h1
  have e2 : (⟨(y 2).val, (y 2).isLt⟩ : Fin 16384) = k := Fin.ext h2
  rw [e1, e2]

theorem hz2 : (![0, 0] : Fin 2 → Nat) = fun _ => 0 := funext fun a => by fin_cases a <;> rfl

/-- The load of plane 0 of the gate block, at row r, is the block's entry (0, r, 0). -/
theorem ld_plane0 (x2 : Vec Ideal S2x64x1 .f32) (r : Fin 64) :
    View.ld x2 r1_1 (ix3 (0 : Fin 1) r (0 : Fin 1)) = x2 (ix3 (0 : Fin 2) r (0 : Fin 1)) := by
  refine congrArg x2 (funext fun a => Fin.ext ?_)
  match a with
  | ⟨0, _⟩ => rfl
  | ⟨1, _⟩ => show 0 + 1 * r.val = r.val; omega
  | ⟨2, _⟩ => rfl

/-- The load of plane 1 of the gate block, at row r, is the block's entry (1, r, 0). -/
theorem ld_plane1 (x2 : Vec Ideal S2x64x1 .f32) (r : Fin 64) :
    View.ld x2 r1_2 (ix3 (0 : Fin 1) r (0 : Fin 1)) = x2 (ix3 (1 : Fin 2) r (0 : Fin 1)) := by
  refine congrArg x2 (funext fun a => Fin.ext ?_)
  match a with
  | ⟨0, _⟩ => rfl
  | ⟨1, _⟩ => show 0 + 1 * r.val = r.val; omega
  | ⟨2, _⟩ => rfl

/-- What the body leaves in the output block: the two stores, one per plane, together are the block's complex
    product with its gate. -/
theorem out_eq (x0 x1 : Vec Ideal S64x16384 .f32) (x2 : Vec Ideal S2x64x1 .f32) :
    out1_3 (F := Ideal) x0 x1 x2 = gatedBlk x0 x1 x2 := by
  funext y
  unfold out1_3
  rw [View.ld_unit_zero (S := S64x16384) hz2, View.ld_unit_zero (S := S64x16384) hz2]
  refine View.canon_apply_of_pieces (Val := Elt Ideal) (e := .f32) (gatedBlk x0 x1 x2) _ (fun p hp x => ?_) y (cover1_3 _ _ y)
  simp only [List.mem_cons, List.mem_singleton, List.not_mem_nil, or_false] at hp
  rcases hp with rfl | rfl
  · -- the store of plane 1
    obtain ⟨z, r, k, rfl⟩ : ∃ (z : Fin 1) (r : Fin 64) (k : Fin 16384), x = ix3 z r k := ⟨x 0, x 1, x 2, eq_ix3 x⟩
    obtain rfl : z = 0 := Subsingleton.elim _ _
    refine (pay6_apply x0 x1 _ _ r k).trans ?_
    rw [ld_plane0, ld_plane1]
    exact (gatedBlk_plane1 x0 x1 x2 _ r k rfl (by show 0 + 1 * r.val = r.val; omega)
      (by show 0 + 1 * k.val = k.val; omega)).symm
  · -- the store of plane 0
    obtain ⟨z, r, k, rfl⟩ : ∃ (z : Fin 1) (r : Fin 64) (k : Fin 16384), x = ix3 z r k := ⟨x 0, x 1, x 2, eq_ix3 x⟩
    obtain rfl : z = 0 := Subsingleton.elim _ _
    refine (pay5_apply x0 x1 _ _ r k).trans ?_
    rw [ld_plane0, ld_plane1]
    exact (gatedBlk_plane0 x0 x1 x2 _ r k rfl (by show 0 + 1 * r.val = r.val; omega)
      (by show 0 + 1 * k.val = k.val; omega)).symm

/-- A block's product against the whole arrays': if the staged blocks hold rows 64 T … 64 T + 63 of the two inputs and
    of both planes of the gate, the block's product at (s, r, k) is the whole arrays' at (s, 64 T + r, k). -/
theorem gated_block (A0 A1 : X2.Idx → EReal) (Gt : G3.Idx → EReal) (x0 x1 : Vec Ideal S64x16384 .f32)
    (x2 : Vec Ideal S2x64x1 .f32) (T : Nat) (y : S2x64x16384.Idx) (i : O3.Idx)
    (hx0 : ∀ (r : Fin 64) (k : Fin 16384) (R : Fin 4096), R.val = T * 64 + r.val → x0 (ix2 r k) = A0 (ix2 R k))
    (hx1 : ∀ (r : Fin 64) (k : Fin 16384) (R : Fin 4096), R.val = T * 64 + r.val → x1 (ix2 r k) = A1 (ix2 R k))
    (hx2 : ∀ (s : Fin 2) (r : Fin 64) (R : Fin 4096), R.val = T * 64 + r.val →
      x2 (ix3 s r (0 : Fin 1)) = Gt (ix3 s R (0 : Fin 1)))
    (hi0 : (i 0).val = (y 0).val) (hi1 : (i 1).val = T * 64 + (y 1).val) (hi2 : (i 2).val = (y 2).val) :
    gatedBlk x0 x1 x2 y = gated A0 A1 Gt i := by
  unfold gatedBlk gated
  have e2 : (⟨(i 2).val, (i 2).isLt⟩ : Fin 16384) = ⟨(y 2).val, (y 2).isLt⟩ := Fin.ext hi2
  rw [hi0, e2,
    hx0 ⟨(y 1).val, (y 1).isLt⟩ ⟨(y 2).val, (y 2).isLt⟩ ⟨(i 1).val, (i 1).isLt⟩ hi1,
    hx1 ⟨(y 1).val, (y 1).isLt⟩ ⟨(y 2).val, (y 2).isLt⟩ ⟨(i 1).val, (i 1).isLt⟩ hi1,
    hx2 0 ⟨(y 1).val, (y 1).isLt⟩ ⟨(i 1).val, (i 1).isLt⟩ hi1,
    hx2 1 ⟨(y 1).val, (y 1).isLt⟩ ⟨(i 1).val, (i 1).isLt⟩ hi1]

-- the whole arrays' product is compared by name below, never unfolded
attribute [local irreducible] gated

/-- What point t writes back through the output window is block t of the whole arrays' product. -/
theorem flushed3_eq (c : Dev nD) (t : Fin cfg1.N) :
    (dat1 V c).flushed 3 t
      = ((cfg1.win 3).blk t).view.read (Elt Ideal) (gated (V c main_v0) (V c main_v1) (V c main_v110)) := by
  show (cfg1.win 3).cut (grid1.coords t) ((dat1 V c).after 3 t) = _
  rw [after1_3, out_eq]
  obtain ⟨e00, e01, e10, e11, e20, e21, e22, e30, e31, e32⟩ := idx_facts t
  funext y
  show gatedBlk (iblk1 V c 0 t) (iblk1 V c 1 t) (iblk1 V c 2 t) y
    = gated (V c main_v0) (V c main_v1) (V c main_v110) (((cfg1.win 3).blk t).view.emb y)
  refine gated_block (V c main_v0) (V c main_v1) (V c main_v110) _ _ _ t.val y _
    (fun r k R hR => ?_) (fun r k R hR => ?_) (fun s r R hR => ?_) ?_ ?_ ?_
  · show V c main_v0 (((cfg1.win 0).blk t).view.emb (ix2 r k)) = V c main_v0 (ix2 R k)
    refine congrArg (V c main_v0) (funext fun a => Fin.ext ?_)
    match a with
    | ⟨0, _⟩ => show win1_0.index t (0 : Fin 2) * 64 + 1 * r.val = R.val; omega
    | ⟨1, _⟩ => show win1_0.index t (1 : Fin 2) * 16384 + 1 * k.val = k.val; omega
  · show V c main_v1 (((cfg1.win 1).blk t).view.emb (ix2 r k)) = V c main_v1 (ix2 R k)
    refine congrArg (V c main_v1) (funext fun a => Fin.ext ?_)
    match a with
    | ⟨0, _⟩ => show win1_1.index t (0 : Fin 2) * 64 + 1 * r.val = R.val; omega
    | ⟨1, _⟩ => show win1_1.index t (1 : Fin 2) * 16384 + 1 * k.val = k.val; omega
  · show V c main_v110 (((cfg1.win 2).blk t).view.emb (ix3 s r (0 : Fin 1))) = V c main_v110 (ix3 s R (0 : Fin 1))
    refine congrArg (V c main_v110) (funext fun a => Fin.ext ?_)
    match a with
    | ⟨0, _⟩ => show win1_2.index t (0 : Fin 3) * 2 + 1 * s.val = s.val; omega
    | ⟨1, _⟩ => show win1_2.index t (1 : Fin 3) * 64 + 1 * r.val = R.val; omega
    | ⟨2, _⟩ => show win1_2.index t (2 : Fin 3) * 1 + 1 * 0 = 0; omega
  · show win1_3.index t (0 : Fin 3) * 2 + 1 * (y 0).val = (y 0).val; omega
  · show win1_3.index t (1 : Fin 3) * 64 + 1 * (y 1).val = t.val * 64 + (y 1).val; omega
  · show win1_3.index t (2 : Fin 3) * 16384 + 1 * (y 2).val = (y 2).val; omega

/-- An index of the output array is in point t's block iff each coordinate is in the block's range on its axis. -/
theorem mem_blk3 (t : Fin cfg1.N) (i : S2x4096x16384.Idx) :
    i ∈ ((cfg1.win 3).blk t).view.set ↔ ∀ a : Fin 3, win1_3.index t a * S2x64x16384.size a ≤ (i a).val
      ∧ (i a).val < win1_3.index t a * S2x64x16384.size a + S2x64x16384.size a := by
  show i ∈ ((View.whole main_v111).slice (win1_3.rect t)).set ↔ _
  rw [View.set_slice_whole, Rect.mem_set_unit]
  exact Iff.rfl

/-- Every index of the output array is in some point's block: row R of either plane in point R / 64's. -/
theorem cover3 (i : S2x4096x16384.Idx) :
    ∃ t : Fin cfg1.N, (cfg1.win 3).flush t = true ∧ i ∈ ((cfg1.win 3).blk t).view.set := by
  have h0 : (i 0).val < 2 := (i 0).isLt
  have h1 : (i 1).val < 4096 := (i 1).isLt
  have h2 : (i 2).val < 16384 := (i 2).isLt
  have hN : cfg1.N = 64 := N_1
  refine ⟨⟨(i 1).val / 64, by rw [hN]; omega⟩, flush1_3 _, ?_⟩
  obtain ⟨e00, e01, e10, e11, e20, e21, e22, e30, e31, e32⟩ := idx_facts ⟨(i 1).val / 64, by rw [hN]; omega⟩
  rw [mem_blk3]
  intro a
  match a with
  | ⟨0, _⟩ =>
    show win1_3.index _ (0 : Fin 3) * 2 ≤ (i 0).val ∧ (i 0).val < win1_3.index _ (0 : Fin 3) * 2 + 2
    rw [e30]; omega
  | ⟨1, _⟩ =>
    show win1_3.index _ (1 : Fin 3) * 64 ≤ (i 1).val ∧ (i 1).val < win1_3.index _ (1 : Fin 3) * 64 + 64
    rw [e31]
    show (i 1).val / 64 * 64 ≤ (i 1).val ∧ (i 1).val < (i 1).val / 64 * 64 + 64
    omega
  | ⟨2, _⟩ =>
    show win1_3.index _ (2 : Fin 3) * 16384 ≤ (i 2).val ∧ (i 2).val < win1_3.index _ (2 : Fin 3) * 16384 + 16384
    rw [e32]; omega

/-- THE OUTPUT ARRAY after the second pass: the complex product of the two inputs with the gate, row by row, of the
    three arrays as the region finds them. -/
theorem final3 (c : Dev nD) : (dat1 V c).arrAt 3 cfg1.N = gated (V c main_v0) (V c main_v1) (V c main_v110) :=
  (dat1 V c).arrAt_eq_of_cover 3 (gated (V c main_v0) (V c main_v1) (V c main_v110)) (fun t _ => flushed3_eq V c t) cover3

end Cert.KernelIdeal.GateV

end
-- ==== Proof.Mlp.lean ====
/-
  The gate network, as ONE function of the four pooled [16, 256] arrays and the eight weight arrays: a complex linear
  layer 256 → 64, a leaky rectifier on each part, a complex linear layer 64 → 256, applied to the pooled means and to the
  pooled maxima; the two results are added and passed through the logistic function, part by part. The kernel's host
  program and the reference both apply exactly these operations, in this order, to their own pooled arrays; the
  certificate never opens them: it proves the pooled arrays equal and applies this function to both.
  Also here: how the kernel's host program packs the two [16, 256] gates into the [2, 4096, 1] array its second pass reads.
-/
import Idealize.ShloMosaic.PureOps

noncomputable section

namespace Cert.ChannelGate

open Idealize.ShloMosaic

abbrev N0 : Shape := ⟨0, ![]⟩
abbrev B16x256 : Shape := ⟨2, ![16, 256]⟩
abbrev B16x64 : Shape := ⟨2, ![16, 64]⟩
abbrev B64x256 : Shape := ⟨2, ![64, 256]⟩
abbrev B256x64 : Shape := ⟨2, ![256, 64]⟩
abbrev B64 : Shape := ⟨1, ![64]⟩
abbrev B1x64 : Shape := ⟨2, ![1, 64]⟩
abbrev B256 : Shape := ⟨1, ![256]⟩
abbrev B1x256 : Shape := ⟨2, ![1, 256]⟩
abbrev B4096 : Shape := ⟨1, ![4096]⟩
abbrev B1x4096 : Shape := ⟨2, ![1, 4096]⟩
abbrev B2x4096 : Shape := ⟨2, ![2, 4096]⟩
abbrev B2x4096x1 : Shape := ⟨3, ![2, 4096, 1]⟩

/-- The dimension records and shape relations the network's operations carry. -/
structure Net : Type where
  d1 : DotDims B16x256 B256x64 B16x64
  d2 : DotDims B16x64 B64x256 B16x256
  t1 : B64x256.Transposes [1, 0] B256x64
  t2 : B256x64.Transposes [1, 0] B64x256
  b64a : B64.BroadcastsInDim B1x64 (![1] : Fin 1 → Fin B1x64.rank)
  b64b : B1x64.BroadcastsInDim B16x64 (![0, 1] : Fin 2 → Fin B16x64.rank)
  b64c : N0.BroadcastsInDim B16x64 (![] : Fin 0 → Fin B16x64.rank)
  b256a : B256.BroadcastsInDim B1x256 (![1] : Fin 1 → Fin B1x256.rank)
  b256b : B1x256.BroadcastsInDim B16x256 (![0, 1] : Fin 2 → Fin B16x256.rank)
  b256c : N0.BroadcastsInDim B16x256 (![] : Fin 0 → Fin B16x256.rank)

variable {F : FTy → Type} [FloatOps F]

/-- The first complex linear layer, real part: zr w_reᵀ − zi w_imᵀ + b_re. -/
def lin1Re (N : Net) (zr zi : FVec F B16x256 .f32) (wr wi : FVec F B64x256 .f32) (br : FVec F B64 .f32) : FVec F B16x64 .f32 :=
  addf (subf (Host.dotGeneral N.d1 none zr (transpose B256x64 [1, 0] wr N.t1))
             (Host.dotGeneral N.d1 none zi (transpose B256x64 [1, 0] wi N.t1)))
       (broadcastInDim B16x64 ![0, 1] N.b64b (broadcastInDim B1x64 ![1] N.b64a br))

/-- The first complex linear layer, imaginary part: zr w_imᵀ + zi w_reᵀ + b_im. -/
def lin1Im (N : Net) (zr zi : FVec F B16x256 .f32) (wr wi : FVec F B64x256 .f32) (bi : FVec F B64 .f32) : FVec F B16x64 .f32 :=
  addf (addf (Host.dotGeneral N.d1 none zr (transpose B256x64 [1, 0] wi N.t1))
             (Host.dotGeneral N.d1 none zi (transpose B256x64 [1, 0] wr N.t1)))
       (broadcastInDim B16x64 ![0, 1] N.b64b (broadcastInDim B1x64 ![1] N.b64a bi))

/-- The leaky rectifier: z where z > 0, the slope's pattern times z elsewhere. -/
def leaky (N : Net) (z : FVec F B16x64 .f32) : FVec F B16x64 .f32 :=
  select (cmpf .ogt z (broadcastInDim B16x64 ![] N.b64c (constant N0 .f32 0x00000000#32))) z
    (mulf (broadcastInDim B16x64 ![] N.b64c (constant N0 .f32 0x3C23D70A#32)) z)

/-- The second complex linear layer, real part. -/
def lin2Re (N : Net) (hr hi : FVec F B16x64 .f32) (wr wi : FVec F B256x64 .f32) (br : FVec F B256 .f32) : FVec F B16x256 .f32 :=
  addf (subf (Host.dotGeneral N.d2 none hr (transpose B64x256 [1, 0] wr N.t2))
             (Host.dotGeneral N.d2 none hi (transpose B64x256 [1, 0] wi N.t2)))
       (broadcastInDim B16x256 ![0, 1] N.b256b (broadcastInDim B1x256 ![1] N.b256a br))

/-- The second complex linear layer, imaginary part. -/
def lin2Im (N : Net) (hr hi : FVec F B16x64 .f32) (wr wi : FVec F B256x64 .f32) (bi : FVec F B256 .f32) : FVec F B16x256 .f32 :=
  addf (addf (Host.dotGeneral N.d2 none hr (transpose B64x256 [1, 0] wi N.t2))
             (Host.dotGeneral N.d2 none hi (transpose B64x256 [1, 0] wr N.t2)))
       (broadcastInDim B16x256 ![0, 1] N.b256b (broadcastInDim B1x256 ![1] N.b256a bi))

/-- The network's real output on one pooled pair. -/
def mlpRe (N : Net) (zr zi : FVec F B16x256 .f32) (w1r w1i : FVec F B64x256 .f32) (b1r b1i : FVec F B64 .f32)
    (w2r w2i : FVec F B256x64 .f32) (b2r : FVec F B256 .f32) : FVec F B16x256 .f32 :=
  lin2Re N (leaky N (lin1Re N zr zi w1r w1i b1r)) (leaky N (lin1Im N zr zi w1r w1i b1i)) w2r w2i b2r

/-- The network's imaginary output on one pooled pair. -/
def mlpIm (N : Net) (zr zi : FVec F B16x256 .f32) (w1r w1i : FVec F B64x256 .f32) (b1r b1i : FVec F B64 .f32)
    (w2r w2i : FVec F B256x64 .f32) (b2i : FVec F B256 .f32) : FVec F B16x256 .f32 :=
  lin2Im N (leaky N (lin1Re N zr zi w1r w1i b1r)) (leaky N (lin1Im N zr zi w1r w1i b1i)) w2r w2i b2i

/-- The logistic function, 1 / (1 + exp (−s)), as the host spells it. -/
def logistic (N : Net) (s : FVec F B16x256 .f32) : FVec F B16x256 .f32 :=
  Host.divf (broadcastInDim B16x256 ![] N.b256c (constant N0 .f32 0x3F800000#32))
    (addf (broadcastInDim B16x256 ![] N.b256c (constant N0 .f32 0x3F800000#32)) (Host.exp (Host.negf s)))

/-- The real gate: the logistic function of the network's real outputs on the means and on the maxima, added. -/
def gateRe (N : Net) (ar ai mr mi : FVec F B16x256 .f32) (w1r w1i : FVec F B64x256 .f32) (b1r b1i : FVec F B64 .f32)
    (w2r w2i : FVec F B256x64 .f32) (b2r : FVec F B256 .f32) : FVec F B16x256 .f32 :=
  logistic N (addf (mlpRe N ar ai w1r w1i b1r b1i w2r w2i b2r) (mlpRe N mr mi w1r w1i b1r b1i w2r w2i b2r))

/-- The imaginary gate. -/
def gateIm (N : Net) (ar ai mr mi : FVec F B16x256 .f32) (w1r w1i : FVec F B64x256 .f32) (b1r b1i : FVec F B64 .f32)
    (w2r w2i : FVec F B256x64 .f32) (b2i : FVec F B256 .f32) : FVec F B16x256 .f32 :=
  logistic N (addf (mlpIm N ar ai w1r w1i b1r b1i w2r w2i b2i) (mlpIm N mr mi w1r w1i b1r b1i w2r w2i b2i))

end Cert.ChannelGate

end
-- ==== Proof.GateEntry.lean ====
/-
  What the second pass finds when it is entered: its two flattened inputs are the reshapes of the arguments, and its gate
  array [2, 4096, 1] is the packing of the two gates the host operations between the passes compute — the gate network
  (Mlp.lean) applied to the first pass's four columns, each reshaped to [16, 256], and to the weight arguments.
-/
import proofs.«122062_j31482110280381_2_alg».proof.Proof.Gen.KernelIdeal.Frame
import proofs.«122062_j31482110280381_2_alg».proof.Proof.Mlp
import Idealize.ShloMosaic.Lib.StableHlo.Run
import Idealize.ShloMosaic.PureOps.Ideal

set_option maxRecDepth 16384

noncomputable section

namespace Cert.KernelIdeal.Entry

open Cert.KernelIdeal Cert.KernelIdeal.Gen Cert.ChannelGate
open Idealize.ShloMosaic Idealize.ShloMosaic.TcCoe Idealize.SL.Sem Idealize.ShloMosaic.StableHlo

/-- The kernel program's dimension records and shape relations, as the network takes them. -/
abbrev net : Net where
  d1 := dot_S16x256_S256x64_S16x64_1_0_0_1_n_n
  d2 := dot_S16x64_S64x256_S16x256_1_0_0_1_n_n
  t1 := transposes_S64x256_S256x64_1_0
  t2 := transposes_S256x64_S64x256_1_0
  b64a := bcast_S64_S1x64_1
  b64b := bcast_S1x64_S16x64_0_1
  b64c := bcast_S_S16x64
  b256a := bcast_S256_S1x256_1
  b256b := bcast_S1x256_S16x256_0_1
  b256c := bcast_S_S16x256

variable (m : (ℓ : Loc nD τ sig) → Buf (Elt Ideal) ℓ) (ρ : Dev nD → PrngReg)

set_option maxHeartbeats 8000000 in
/-- The gate array [2, 4096, 1] the second pass reads: the two gates the host operations between the passes compute from
    the first pass's four columns (each reshaped to [16, 256]) and the weights, each gate flattened to [4096], given a
    leading unit axis, the two joined along it, and a trailing unit axis added. -/
theorem gate_entry (c : Dev nD) :
    (W11 m ρ c (Proc.devRef .tc main_v110) : S2x4096x1.Idx → Ideal .f32)
      = shapeCast S2x4096x1
          (concatenate S2x4096 0
            [⟨S1x4096, broadcastInDim S1x4096 ![1] bcast_S4096_S1x4096_1 (shapeCast S4096
              (gateRe (F := Ideal) net
                (shapeCast S16x256 (W2 m ρ c (Proc.devRef .tc main_v2_0) : S4096x1.Idx → Ideal .f32) shapeCasts_S4096x1_S16x256)
                (shapeCast S16x256 (W2 m ρ c (Proc.devRef .tc main_v2_1) : S4096x1.Idx → Ideal .f32) shapeCasts_S4096x1_S16x256)
                (shapeCast S16x256 (W2 m ρ c (Proc.devRef .tc main_v2_2) : S4096x1.Idx → Ideal .f32) shapeCasts_S4096x1_S16x256)
                (shapeCast S16x256 (W2 m ρ c (Proc.devRef .tc main_v2_3) : S4096x1.Idx → Ideal .f32) shapeCasts_S4096x1_S16x256)
                (W2 m ρ c (Proc.devRef .tc main_arg2)) (W2 m ρ c (Proc.devRef .tc main_arg3))
                (W2 m ρ c (Proc.devRef .tc main_arg4)) (W2 m ρ c (Proc.devRef .tc main_arg5))
                (W2 m ρ c (Proc.devRef .tc main_arg6)) (W2 m ρ c (Proc.devRef .tc main_arg7))
                (W2 m ρ c (Proc.devRef .tc main_arg8))) shapeCasts_S16x256_S4096)⟩,
             ⟨S1x4096, broadcastInDim S1x4096 ![1] bcast_S4096_S1x4096_1 (shapeCast S4096
              (gateIm (F := Ideal) net
                (shapeCast S16x256 (W2 m ρ c (Proc.devRef .tc main_v2_0) : S4096x1.Idx → Ideal .f32) shapeCasts_S4096x1_S16x256)
                (shapeCast S16x256 (W2 m ρ c (Proc.devRef .tc main_v2_1) : S4096x1.Idx → Ideal .f32) shapeCasts_S4096x1_S16x256)
                (shapeCast S16x256 (W2 m ρ c (Proc.devRef .tc main_v2_2) : S4096x1.Idx → Ideal .f32) shapeCasts_S4096x1_S16x256)
                (shapeCast S16x256 (W2 m ρ c (Proc.devRef .tc main_v2_3) : S4096x1.Idx → Ideal .f32) shapeCasts_S4096x1_S16x256)
                (W2 m ρ c (Proc.devRef .tc main_arg2)) (W2 m ρ c (Proc.devRef .tc main_arg3))
                (W2 m ρ c (Proc.devRef .tc main_arg4)) (W2 m ρ c (Proc.devRef .tc main_arg5))
                (W2 m ρ c (Proc.devRef .tc main_arg6)) (W2 m ρ c (Proc.devRef .tc main_arg7))
                (W2 m ρ c (Proc.devRef .tc main_arg9))) shapeCasts_S16x256_S4096)⟩]
            concatenates_S1x4096_S1x4096_S2x4096_d0) shapeCasts_S2x4096_S2x4096x1 := by
  dsimp only [W11, W10, W9, W8, W7, W6, W5, W4, W3]
  generalize W2 m ρ c = W
  after_results_simp
  rfl

/-- No host operation between the passes writes the flattened inputs. -/
theorem W11_main_v0 (c : Dev nD) : W11 m ρ c (Proc.devRef .tc main_v0) = W2 m ρ c (Proc.devRef .tc main_v0) := by
  dsimp only [W11, W10, W9, W8, W7, W6, W5, W4, W3]
  generalize W2 m ρ c = W
  after_results_simp
theorem W11_main_v1 (c : Dev nD) : W11 m ρ c (Proc.devRef .tc main_v1) = W2 m ρ c (Proc.devRef .tc main_v1) := by
  dsimp only [W11, W10, W9, W8, W7, W6, W5, W4, W3]
  generalize W2 m ρ c = W
  after_results_simp

/-- The first pass leaves its two inputs as it found them. -/
theorem W2_main_v0 (c : Dev nD) : W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))
theorem W2_main_v1 (c : Dev nD) : W2 m ρ c (Proc.devRef .tc main_v1) = W1 m ρ c (Proc.devRef .tc main_v1) :=
  (W2_arr m ρ c 1).trans (((dat0 (V1 m ρ) c).arrAt_in 1 rfl cfg0.N).trans (A_eq0 (V1 m ρ) c 1))

/-- The first pass's inputs are the arguments, flattened. -/
theorem W1_main_v0 (c : Dev nD) : (W1 m ρ c (Proc.devRef .tc main_v0) : S4096x16384.Idx → Ideal .f32)
    = shapeCast S4096x16384 (m ((c : Thread nD τ).loc main_arg0)) shapeCasts_S16x256x128x128_S4096x16384 := by
  dsimp only [W1, hostOps0]
  after_results
  rfl
theorem W1_main_v1 (c : Dev nD) : (W1 m ρ c (Proc.devRef .tc main_v1) : S4096x16384.Idx → Ideal .f32)
    = shapeCast S4096x16384 (m ((c : Thread nD τ).loc main_arg1)) shapeCasts_S16x256x128x128_S4096x16384 := by
  dsimp only [W1, hostOps0]
  after_results
  rfl

/-- The weight argument 2 is untouched up to the first pass's exit. -/
theorem W2_main_arg2 (c : Dev nD) : W2 m ρ c (Proc.devRef .tc main_arg2) = m ((c : Thread nD τ).loc main_arg2) := by
  refine (W2_of_ne m ρ c main_arg2 (by decide)).trans ?_
  dsimp only [W1, hostOps0]
  after_results

/-- The weight argument 3 is untouched up to the first pass's exit. -/
theorem W2_main_arg3 (c : Dev nD) : W2 m ρ c (Proc.devRef .tc main_arg3) = m ((c : Thread nD τ).loc main_arg3) := by
  refine (W2_of_ne m ρ c main_arg3 (by decide)).trans ?_
  dsimp only [W1, hostOps0]
  after_results

/-- The weight argument 4 is untouched up to the first pass's exit. -/
theorem W2_main_arg4 (c : Dev nD) : W2 m ρ c (Proc.devRef .tc main_arg4) = m ((c : Thread nD τ).loc main_arg4) := by
  refine (W2_of_ne m ρ c main_arg4 (by decide)).trans ?_
  dsimp only [W1, hostOps0]
  after_results

/-- The weight argument 5 is untouched up to the first pass's exit. -/
theorem W2_main_arg5 (c : Dev nD) : W2 m ρ c (Proc.devRef .tc main_arg5) = m ((c : Thread nD τ).loc main_arg5) := by
  refine (W2_of_ne m ρ c main_arg5 (by decide)).trans ?_
  dsimp only [W1, hostOps0]
  after_results

/-- The weight argument 6 is untouched up to the first pass's exit. -/
theorem W2_main_arg6 (c : Dev nD) : W2 m ρ c (Proc.devRef .tc main_arg6) = m ((c : Thread nD τ).loc main_arg6) := by
  refine (W2_of_ne m ρ c main_arg6 (by decide)).trans ?_
  dsimp only [W1, hostOps0]
  after_results

/-- The weight argument 7 is untouched up to the first pass's exit. -/
theorem W2_main_arg7 (c : Dev nD) : W2 m ρ c (Proc.devRef .tc main_arg7) = m ((c : Thread nD τ).loc main_arg7) := by
  refine (W2_of_ne m ρ c main_arg7 (by decide)).trans ?_
  dsimp only [W1, hostOps0]
  after_results

/-- The weight argument 8 is untouched up to the first pass's exit. -/
theorem W2_main_arg8 (c : Dev nD) : W2 m ρ c (Proc.devRef .tc main_arg8) = m ((c : Thread nD τ).loc main_arg8) := by
  refine (W2_of_ne m ρ c main_arg8 (by decide)).trans ?_
  dsimp only [W1, hostOps0]
  after_results

/-- The weight argument 9 is untouched up to the first pass's exit. -/
theorem W2_main_arg9 (c : Dev nD) : W2 m ρ c (Proc.devRef .tc main_arg9) = m ((c : Thread nD τ).loc main_arg9) := by
  refine (W2_of_ne m ρ c main_arg9 (by decide)).trans ?_
  dsimp only [W1, hostOps0]
  after_results

end Cert.KernelIdeal.Entry

end
-- ==== Proof.KernelValue.lean ====
/-
  The idealized kernel program's result as ONE function of its ten arguments, and its run with the result so named.
  The result buffer holds the reshape to [2, 16, 256, 128, 128] of the second pass's output; the second pass's output is
  the row-by-row complex product (Spec.lean `gated`) of the flattened inputs with the packed gates; the gates are the gate
  network (Mlp.lean) of the first pass's four columns, each reshaped to [16, 256]; and the first pass's columns are the
  rows' means and maxima of the flattened inputs.
-/
import proofs.«122062_j31482110280381_2_alg».proof.Proof.KernelRun
import proofs.«122062_j31482110280381_2_alg».proof.Proof.PoolRegion
import proofs.«122062_j31482110280381_2_alg».proof.Proof.GateRegion
import proofs.«122062_j31482110280381_2_alg».proof.Proof.GateEntry

set_option maxRecDepth 16384

noncomputable section

namespace Cert.KernelIdeal.Out

open Cert.KernelIdeal Cert.KernelIdeal.Gen Cert.ChannelGate Cert.KernelIdeal.Entry
open Idealize.ShloMosaic Idealize.ShloMosaic.TcCoe Idealize.SL.Sem Idealize.ShloMosaic.StableHlo

/-- A pooled column of a flattened input, reshaped to [16, 256]. -/
abbrev pooled (f : (S4096x16384.Idx → EReal) → S4096x1.Idx → EReal) (x : FVec Ideal S16x256x128x128 .f32) : FVec Ideal S16x256 .f32 :=
  shapeCast S16x256 (f (shapeCast S4096x16384 x shapeCasts_S16x256x128x128_S4096x16384)) shapeCasts_S4096x1_S16x256

/-- The kernel program's result as a function of its ten arguments. -/
def result (x0 x1 : FVec Ideal S16x256x128x128 .f32) (w1r w1i : FVec Ideal S64x256 .f32) (b1r b1i : FVec Ideal S64 .f32)
    (w2r w2i : FVec Ideal S256x64 .f32) (b2r b2i : FVec Ideal S256 .f32) : FVec Ideal S2x16x256x128x128 .f32 :=
  shapeCast S2x16x256x128x128
    (gated (shapeCast S4096x16384 x0 shapeCasts_S16x256x128x128_S4096x16384)
      (shapeCast S4096x16384 x1 shapeCasts_S16x256x128x128_S4096x16384)
      (shapeCast S2x4096x1
        (concatenate S2x4096 0
          [⟨S1x4096, broadcastInDim S1x4096 ![1] bcast_S4096_S1x4096_1 (shapeCast S4096
            (gateRe (F := Ideal) net (pooled rowMean x0) (pooled rowMean x1) (pooled rowMax x0) (pooled rowMax x1)
              w1r w1i b1r b1i w2r w2i b2r) shapeCasts_S16x256_S4096)⟩,
           ⟨S1x4096, broadcastInDim S1x4096 ![1] bcast_S4096_S1x4096_1 (shapeCast S4096
            (gateIm (F := Ideal) net (pooled rowMean x0) (pooled rowMean x1) (pooled rowMax x0) (pooled rowMax x1)
              w1r w1i b1r b1i w2r w2i b2i) shapeCasts_S16x256_S4096)⟩]
          concatenates_S1x4096_S1x4096_S2x4096_d0) shapeCasts_S2x4096_S2x4096x1))
    shapeCasts_S2x4096x16384_S2x16x256x128x128

variable (m : (ℓ : Loc nD τ sig) → Buf (Elt Ideal) ℓ) (ρ : Dev nD → PrngReg)

/-- The flattened inputs as the second pass finds them. -/
theorem entry_v0 (c : Dev nD) : (V11 m ρ c main_v0 : S4096x16384.Idx → Ideal .f32)
    = shapeCast S4096x16384 (m ((c : Thread nD τ).loc main_arg0)) shapeCasts_S16x256x128x128_S4096x16384 :=
  (W11_main_v0 m ρ c).trans ((W2_main_v0 m ρ c).trans (W1_main_v0 m ρ c))
theorem entry_v1 (c : Dev nD) : (V11 m ρ c main_v1 : S4096x16384.Idx → Ideal .f32)
    = shapeCast S4096x16384 (m ((c : Thread nD τ).loc main_arg1)) shapeCasts_S16x256x128x128_S4096x16384 :=
  (W11_main_v1 m ρ c).trans ((W2_main_v1 m ρ c).trans (W1_main_v1 m ρ c))

/-- The first pass's four columns at its exit. -/
theorem col0 (c : Dev nD) : (W2 m ρ c (Proc.devRef .tc main_v2_0) : S4096x1.Idx → Ideal .f32)
    = rowMean (shapeCast S4096x16384 (m ((c : Thread nD τ).loc main_arg0)) shapeCasts_S16x256x128x128_S4096x16384) :=
  (W2_arr m ρ c 2).trans ((PoolV.final2 (V1 m ρ) c).trans (congrArg rowMean (W1_main_v0 m ρ c)))
theorem col1 (c : Dev nD) : (W2 m ρ c (Proc.devRef .tc main_v2_1) : S4096x1.Idx → Ideal .f32)
    = rowMean (shapeCast S4096x16384 (m ((c : Thread nD τ).loc main_arg1)) shapeCasts_S16x256x128x128_S4096x16384) :=
  (W2_arr m ρ c 3).trans ((PoolV.final3 (V1 m ρ) c).trans (congrArg rowMean (W1_main_v1 m ρ c)))
theorem col2 (c : Dev nD) : (W2 m ρ c (Proc.devRef .tc main_v2_2) : S4096x1.Idx → Ideal .f32)
    = rowMax (shapeCast S4096x16384 (m ((c : Thread nD τ).loc main_arg0)) shapeCasts_S16x256x128x128_S4096x16384) :=
  (W2_arr m ρ c 4).trans ((PoolV.final4 (V1 m ρ) c).trans (congrArg rowMax (W1_main_v0 m ρ c)))
theorem col3 (c : Dev nD) : (W2 m ρ c (Proc.devRef .tc main_v2_3) : S4096x1.Idx → Ideal .f32)
    = rowMax (shapeCast S4096x16384 (m ((c : Thread nD τ).loc main_arg1)) shapeCasts_S16x256x128x128_S4096x16384) :=
  (W2_arr m ρ c 5).trans ((PoolV.final5 (V1 m ρ) c).trans (congrArg rowMax (W1_main_v1 m ρ c)))

/-- The result buffer after the last host operation is `result` of the launch contents of the arguments. -/
theorem out_eq (c : Dev nD) : W13 m ρ c (Proc.devRef .tc main_v112)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have h111 : (W12 m ρ c (Proc.devRef .tc main_v111) : S2x4096x16384.Idx → Ideal .f32)
      = gated (V11 m ρ c main_v0) (V11 m ρ c main_v1) (V11 m ρ c main_v110) :=
    (W12_arr m ρ c 3).trans (GateV.final3 (V11 m ρ) c)
  have hout : (W13 m ρ c (Proc.devRef .tc main_v112) : S2x16x256x128x128.Idx → Ideal .f32)
      = shapeCast S2x16x256x128x128 (W12 m ρ c (Proc.devRef .tc main_v111) : S2x4096x16384.Idx → Ideal .f32)
          shapeCasts_S2x4096x16384_S2x16x256x128x128 := by
    dsimp only [W13, hostOps2]
    generalize W12 m ρ c = W
    after_results
    rfl
  rw [hout, h111, entry_v0, entry_v1]
  rw [show (V11 m ρ c main_v110 : S2x4096x1.Idx → Ideal .f32) = _ from gate_entry m ρ c]
  rw [col0, col1, col2, col3, W2_main_arg2, W2_main_arg3, W2_main_arg4, W2_main_arg5, W2_main_arg6, W2_main_arg7,
    W2_main_arg8, W2_main_arg9]
  rfl

/-- The run, with the result named. -/
theorem run : θ_run defs (onTc (τ := τ) (main (F := Ideal))) ⟨m, fun _ => 0, ρ⟩ (fun r => ∀ c : Dev nD,
      r.2.mem ((c.tc : Thread nD τ).loc main_v112)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (out_eq m ρ c), (h c).2⟩) (run_out (F := Ideal) m ρ)

end Cert.KernelIdeal.Out

end
-- ==== Proof.RefSpec.lean ====
/-
  The reference as ONE function of its ten arguments: the two inputs are pooled over height and width (the mean as the
  sum from zero divided by 16384, the maximum as the maximum-reduce from minus infinity), the gate network (Mlp.lean) turns
  the four pooled arrays and the weights into the two gates, each gate is broadcast over height and width, and the output
  stacks x_re * g_re - x_im * g_im and x_re * g_im + x_im * g_re along a new leading axis.
-/
import proofs.«122062_j31482110280381_2_alg».proof.Proof.Gen.ReferenceIdeal
import proofs.«122062_j31482110280381_2_alg».proof.Proof.Mlp
import Idealize.ShloMosaic.PureOps.Ideal

noncomputable section

namespace Cert.ReferenceIdeal.RefV

open Cert.ReferenceIdeal Cert.ReferenceIdeal.Gen Cert.ChannelGate Idealize.ShloMosaic

/-- The reference program's dimension records and shape relations, as the network takes them. -/
abbrev net : Net where
  d1 := dot_S16x256_S256x64_S16x64_1_0_0_1_n_n
  d2 := dot_S16x64_S64x256_S16x256_1_0_0_1_n_n
  t1 := transposes_S64x256_S256x64_1_0
  t2 := transposes_S256x64_S64x256_1_0
  b64a := bcast_S64_S1x64_1
  b64b := bcast_S1x64_S16x64_0_1
  b64c := bcast_S_S16x64
  b256a := bcast_S256_S1x256_1
  b256b := bcast_S1x256_S16x256_0_1
  b256c := bcast_S_S16x256

/-- The mean over height and width: the sum over the two trailing axes from zero, divided by 16384. -/
def meanHW (x : FVec Ideal S16x256x128x128 .f32) : FVec Ideal S16x256 .f32 :=
  Host.divf (Host.reduceAdd x (constant S_ .f32 0x00000000#32) reducesTo_S16x256x128x128_S16x256_d2_3 h_S_)
    (broadcastInDim S16x256 ![] bcast_S_S16x256 (constant S_ .f32 0x46800000#32))

/-- The maximum over height and width. -/
def maxHW (x : FVec Ideal S16x256x128x128 .f32) : FVec Ideal S16x256 .f32 :=
  Host.reduce FloatOps.maximumf x (constant S_ .f32 0xFF800000#32) reducesTo_S16x256x128x128_S16x256_d2_3 h_S_

/-- The two planes of the complex product of the inputs with gates broadcast over height and width, stacked. -/
def stack (x0 x1 : FVec Ideal S16x256x128x128 .f32) (gr gi : FVec Ideal S16x256 .f32) : FVec Ideal S2x16x256x128x128 .f32 :=
  concatenate S2x16x256x128x128 0
    [⟨S1x16x256x128x128, broadcastInDim S1x16x256x128x128 ![1, 2, 3, 4] bcast_S16x256x128x128_S1x16x256x128x128_1_2_3_4
        (subf (mulf x0 (broadcastInDim S16x256x128x128 ![0, 1, 2, 3] bcast_S16x256x1x1_S16x256x128x128_0_1_2_3
                (broadcastInDim S16x256x1x1 ![0, 1] bcast_S16x256_S16x256x1x1_0_1 gr)))
              (mulf x1 (broadcastInDim S16x256x128x128 ![0, 1, 2, 3] bcast_S16x256x1x1_S16x256x128x128_0_1_2_3
                (broadcastInDim S16x256x1x1 ![0, 1] bcast_S16x256_S16x256x1x1_0_1 gi))))⟩,
     ⟨S1x16x256x128x128, broadcastInDim S1x16x256x128x128 ![1, 2, 3, 4] bcast_S16x256x128x128_S1x16x256x128x128_1_2_3_4
        (addf (mulf x0 (broadcastInDim S16x256x128x128 ![0, 1, 2, 3] bcast_S16x256x1x1_S16x256x128x128_0_1_2_3
                (broadcastInDim S16x256x1x1 ![0, 1] bcast_S16x256_S16x256x1x1_0_1 gi)))
              (mulf x1 (broadcastInDim S16x256x128x128 ![0, 1, 2, 3] bcast_S16x256x1x1_S16x256x128x128_0_1_2_3
                (broadcastInDim S16x256x1x1 ![0, 1] bcast_S16x256_S16x256x1x1_0_1 gr))))⟩]
    concatenates_S1x16x256x128x128_S1x16x256x128x128_S2x16x256x128x128_d0

/-- The reference's result as a function of its ten arguments. -/
def result (x0 x1 : FVec Ideal S16x256x128x128 .f32) (w1r w1i : FVec Ideal S64x256 .f32) (b1r b1i : FVec Ideal S64 .f32)
    (w2r w2i : FVec Ideal S256x64 .f32) (b2r b2i : FVec Ideal S256 .f32) : FVec Ideal S2x16x256x128x128 .f32 :=
  stack x0 x1
    (gateRe net (meanHW x0) (meanHW x1) (maxHW x0) (maxHW x1) w1r w1i b1r b1i w2r w2i b2r)
    (gateIm net (meanHW x0) (meanHW x1) (maxHW x0) (maxHW x1) w1r w1i b1r b1i w2r w2i b2i)

end Cert.ReferenceIdeal.RefV

end
-- ==== Proof.RefValue.lean ====
/-
  The reference program's run, with its result named by ONE folded function of the ten arguments.

  The reference's @main is a straight line of 139 operations in single-assignment form: each writes one reference of
  its own, once, and reads references written before it (or arguments, which nothing writes). What the line leaves in a
  reference is therefore determined stage by stage: the fold of the whole line, read at a reference, is the fold of the
  stage that writes it, started from the contents the earlier stages left; and a reference that no later operation
  writes still holds, at the end, what it held when its stage finished. The stages are the pooled mean and maximum of
  each input, the four layers of the gate network on the means and on the maxima, the two logistic gates, and the
  stacked complex product; each stage's value is one layer of the folded function `result`, so the equations of the
  stages, substituted into one another from the result back to the arguments, are `result` itself.
-/
import proofs.«122062_j31482110280381_2_alg».proof.Proof.RefRun
import proofs.«122062_j31482110280381_2_alg».proof.Proof.RefSpec
import Idealize.ShloMosaic.Lib.StableHlo.Run

set_option maxRecDepth 16384

noncomputable section

namespace Cert.ReferenceIdeal.RefV

open Cert.ReferenceIdeal Cert.ReferenceIdeal.Gen Cert.ReferenceIdeal.RunP Cert.ChannelGate Idealize.ShloMosaic Idealize.ShloMosaic.TcCoe Idealize.SL.Sem Idealize.ShloMosaic.StableHlo

/-! ## The fold of a line, cut in two -/

/-- The contents after two lines run one after the other: the second line's fold from the first line's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line whose operations each write one reference, the references listed in order, leaves every reference not in
    the list as it was. -/
theorem after_frame {τ : Topo} {sig : RefSig} {Val : EltTy → Type} {l : List (HloOp τ sig Val)} {ys : List (Ref sig .tc)}
    (h : List.Forall₂ (fun (op : HloOp τ sig Val) (y : Ref sig .tc) => op.writes = {Proc.devRef (τ := τ) .tc y}) l ys)
    {r : Ref sig .tc} (hr : r ∉ ys) (V : Valuation τ sig Val) :
    after l V (Proc.devRef .tc r) = V (Proc.devRef .tc r) := by
  induction h generalizing V with
  | nil => rfl
  | @cons op y l ys hw _ ih =>
    rw [after_cons, ih (fun hm => hr (List.mem_cons_of_mem _ hm)),
      HloOp.result_of_not_mem _ _ (by
        rw [hw, Finset.mem_singleton]
        exact devRef_ne_of_ne fun e => hr (e ▸ List.mem_cons_self))]

/-! ## The reference's line: which reference each operation writes -/

/-- The reference each of the 139 operations writes, in order: every reference is written once (the program is in
    single-assignment form), and the ten arguments are written by none. -/
abbrev outs : List (Ref sig .tc) :=
  [ main_cst, main_v0, main_cst_0, main_v1, main_v2, main_cst_1, main_v3, main_cst_2, main_v4, main_v5,
    main_cst_3, main_v6, main_cst_4, main_v7, main_v8, main_v9, main_v10, main_v11, main_v12, main_v13,
    main_v14, main_v15, main_v16, main_v17, main_v18, main_v19, main_v20, main_v21, main_v22, main_v23,
    main_cst_5, main_v24, main_v25, main_cst_6, main_v26, main_v27, main_v28, main_cst_7, main_v29, main_v30,
    main_cst_8, main_v31, main_v32, main_v33, main_v34, main_v35, main_v36, main_v37, main_v38, main_v39,
    main_v40, main_v41, main_v42, main_v43, main_v44, main_v45, main_v46, main_v47, main_v48, main_v49,
    main_v50, main_v51, main_v52, main_v53, main_v54, main_v55, main_v56, main_v57, main_v58, main_v59,
    main_v60, main_v61, main_v62, main_v63, main_v64, main_v65, main_cst_9, main_v66, main_v67, main_cst_10,
    main_v68, main_v69, main_v70, main_cst_11, main_v71, main_v72, main_cst_12, main_v73, main_v74, main_v75,
    main_v76, main_v77, main_v78, main_v79, main_v80, main_v81, main_v82, main_v83, main_v84, main_v85,
    main_v86, main_v87, main_v88, main_v89, main_v90, main_v91, main_v92, main_v93, main_v94, main_cst_13,
    main_v95, main_v96, main_cst_14, main_v97, main_v98, main_v99, main_v100, main_v101, main_v102, main_cst_15,
    main_v103, main_v104, main_cst_16, main_v105, main_v106, main_v107, main_v108, main_v109, main_v110, main_v111,
    main_v112, main_v113, main_v114, main_v115, main_v116, main_v117, main_v118, main_v119, main_v120 ]

set_option maxHeartbeats 4000000 in
theorem writes_outs :
    List.Forall₂ (fun (op : HloOp τ sig (Elt Ideal)) (y : Ref sig .tc) => op.writes = {Proc.devRef (τ := τ) .tc y})
      (ops (F := Ideal)) outs := by
  repeat (first | exact List.Forall₂.nil | refine List.Forall₂.cons rfl ?_)

section Fold

variable (W : Valuation τ sig (Elt Ideal))

/-- A reference no operation from position `k` on writes holds at the end what it held after the first `k`. -/
theorem final_at (k : Nat) (r : Ref sig .tc) (hr : r ∉ outs.drop k) :
    after (ops (F := Ideal)) W (Proc.devRef .tc r) = after ((ops (F := Ideal)).take k) W (Proc.devRef .tc r) := by
  have e : after (ops (F := Ideal)) W = after ((ops (F := Ideal)).drop k) (after ((ops (F := Ideal)).take k) W) := by
    rw [← after_append, List.take_append_drop]
  rw [e]
  exact after_frame (List.forall₂_drop k writes_outs) hr _

/-- The value a stage of `n` operations starting at position `a` computes, if nothing later overwrites it, is the
    final value: the stage's fold from the contents after the first `a` operations. -/
theorem final_of_stage (a n k : Nat) (hk : k = a + n) (y : Ref sig .tc) (hy : y ∉ outs.drop k) :
    after (ops (F := Ideal)) W (Proc.devRef .tc y)
      = after (((ops (F := Ideal)).drop a).take n) (after ((ops (F := Ideal)).take a) W) (Proc.devRef .tc y) := by
  subst hk
  rw [final_at W (a + n) y hy, List.take_add, after_append]

/-! ## The stages, each from any contents `V` -/

/-- Operations 0–4: the mean over height and width of the first input. -/
theorem stage_mean0 (V : Valuation τ sig (Elt Ideal)) :
    after (((ops (F := Ideal)).drop 0).take 5) V (Proc.devRef .tc main_v2)
      = meanHW (V (Proc.devRef .tc main_arg0)) := by
  simp only [ops, List.drop_succ_cons, List.drop_zero, List.take_succ_cons, List.take_zero]
  after_results_simp
  rfl

/-- Operations 5–9: the mean of the second input. -/
theorem stage_mean1 (V : Valuation τ sig (Elt Ideal)) :
    after (((ops (F := Ideal)).drop 5).take 5) V (Proc.devRef .tc main_v5)
      = meanHW (V (Proc.devRef .tc main_arg1)) := by
  simp only [ops, List.drop_succ_cons, List.drop_zero, List.take_succ_cons, List.take_zero]
  after_results_simp
  rfl

/-- Operations 10–11: the maximum over height and width of the first input. -/
theorem stage_max0 (V : Valuation τ sig (Elt Ideal)) :
    after (((ops (F := Ideal)).drop 10).take 2) V (Proc.devRef .tc main_v6)
      = maxHW (V (Proc.devRef .tc main_arg0)) := by
  simp only [ops, List.drop_succ_cons, List.drop_zero, List.take_succ_cons, List.take_zero]
  after_results_simp
  rfl

/-- Operations 12–13: the maximum of the second input. -/
theorem stage_max1 (V : Valuation τ sig (Elt Ideal)) :
    after (((ops (F := Ideal)).drop 12).take 2) V (Proc.devRef .tc main_v7)
      = maxHW (V (Proc.devRef .tc main_arg1)) := by
  simp only [ops, List.drop_succ_cons, List.drop_zero, List.take_succ_cons, List.take_zero]
  after_results_simp
  rfl

/-- Operations 14–21: the first layer's real part on the pooled means. -/
theorem stage_meanLin1Re (V : Valuation τ sig (Elt Ideal)) :
    after (((ops (F := Ideal)).drop 14).take 8) V (Proc.devRef .tc main_v15)
      = lin1Re (F := Ideal) net (V (Proc.devRef .tc main_v2)) (V (Proc.devRef .tc main_v5)) (V (Proc.devRef .tc main_arg2)) (V (Proc.devRef .tc main_arg3)) (V (Proc.devRef .tc main_arg4)) := by
  simp only [ops, List.drop_succ_cons, List.drop_zero, List.take_succ_cons, List.take_zero]
  after_results_simp
  rfl

/-- Operations 22–29: the first layer's imaginary part on the pooled means. -/
theorem stage_meanLin1Im (V : Valuation τ sig (Elt Ideal)) :
    after (((ops (F := Ideal)).drop 22).take 8) V (Proc.devRef .tc main_v23)
      = lin1Im (F := Ideal) net (V (Proc.devRef .tc main_v2)) (V (Proc.devRef .tc main_v5)) (V (Proc.devRef .tc main_arg2)) (V (Proc.devRef .tc main_arg3)) (V (Proc.devRef .tc main_arg5)) := by
  simp only [ops, List.drop_succ_cons, List.drop_zero, List.take_succ_cons, List.take_zero]
  after_results_simp
  rfl

/-- Operations 30–36: the leaky rectifier on the real part. -/
theorem stage_meanLeakyRe (V : Valuation τ sig (Elt Ideal)) :
    after (((ops (F := Ideal)).drop 30).take 7) V (Proc.devRef .tc main_v28)
      = leaky (F := Ideal) net (V (Proc.devRef .tc main_v15)) := by
  simp only [ops, List.drop_succ_cons, List.drop_zero, List.take_succ_cons, List.take_zero]
  after_results_simp
  rfl

/-- Operations 37–43: the leaky rectifier on the imaginary part. -/
theorem stage_meanLeakyIm (V : Valuation τ sig (Elt Ideal)) :
    after (((ops (F := Ideal)).drop 37).take 7) V (Proc.devRef .tc main_v33)
      = leaky (F := Ideal) net (V (Proc.devRef .tc main_v23)) := by
  simp only [ops, List.drop_succ_cons, List.drop_zero, List.take_succ_cons, List.take_zero]
  after_results_simp
  rfl

/-- Operations 44–51: the second layer's real part (means). -/
theorem stage_meanLin2Re (V : Valuation τ sig (Elt Ideal)) :
    after (((ops (F := Ideal)).drop 44).take 8) V (Proc.devRef .tc main_v41)
      = lin2Re (F := Ideal) net (V (Proc.devRef .tc main_v28)) (V (Proc.devRef .tc main_v33)) (V (Proc.devRef .tc main_arg6)) (V (Proc.devRef .tc main_arg7)) (V (Proc.devRef .tc main_arg8)) := by
  simp only [ops, List.drop_succ_cons, List.drop_zero, List.take_succ_cons, List.take_zero]
  after_results_simp
  rfl

/-- Operations 52–59: the second layer's imaginary part (means). -/
theorem stage_meanLin2Im (V : Valuation τ sig (Elt Ideal)) :
    after (((ops (F := Ideal)).drop 52).take 8) V (Proc.devRef .tc main_v49)
      = lin2Im (F := Ideal) net (V (Proc.devRef .tc main_v28)) (V (Proc.devRef .tc main_v33)) (V (Proc.devRef .tc main_arg6)) (V (Proc.devRef .tc main_arg7)) (V (Proc.devRef .tc main_arg9)) := by
  simp only [ops, List.drop_succ_cons, List.drop_zero, List.take_succ_cons, List.take_zero]
  after_results_simp
  rfl

/-- Operations 60–67: the first layer's real part on the pooled maxima. -/
theorem stage_maxLin1Re (V : Valuation τ sig (Elt Ideal)) :
    after (((ops (F := Ideal)).drop 60).take 8) V (Proc.devRef .tc main_v57)
      = lin1Re (F := Ideal) net (V (Proc.devRef .tc main_v6)) (V (Proc.devRef .tc main_v7)) (V (Proc.devRef .tc main_arg2)) (V (Proc.devRef .tc main_arg3)) (V (Proc.devRef .tc main_arg4)) := by
  simp only [ops, List.drop_succ_cons, List.drop_zero, List.take_succ_cons, List.take_zero]
  after_results_simp
  rfl

/-- Operations 68–75: the first layer's imaginary part on the pooled maxima. -/
theorem stage_maxLin1Im (V : Valuation τ sig (Elt Ideal)) :
    after (((ops (F := Ideal)).drop 68).take 8) V (Proc.devRef .tc main_v65)
      = lin1Im (F := Ideal) net (V (Proc.devRef .tc main_v6)) (V (Proc.devRef .tc main_v7)) (V (Proc.devRef .tc main_arg2)) (V (Proc.devRef .tc main_arg3)) (V (Proc.devRef .tc main_arg5)) := by
  simp only [ops, List.drop_succ_cons, List.drop_zero, List.take_succ_cons, List.take_zero]
  after_results_simp
  rfl

/-- Operations 76–82: the leaky rectifier on the real part (maxima). -/
theorem stage_maxLeakyRe (V : Valuation τ sig (Elt Ideal)) :
    after (((ops (F := Ideal)).drop 76).take 7) V (Proc.devRef .tc main_v70)
      = leaky (F := Ideal) net (V (Proc.devRef .tc main_v57)) := by
  simp only [ops, List.drop_succ_cons, List.drop_zero, List.take_succ_cons, List.take_zero]
  after_results_simp
  rfl

/-- Operations 83–89: the leaky rectifier on the imaginary part (maxima). -/
theorem stage_maxLeakyIm (V : Valuation τ sig (Elt Ideal)) :
    after (((ops (F := Ideal)).drop 83).take 7) V (Proc.devRef .tc main_v75)
      = leaky (F := Ideal) net (V (Proc.devRef .tc main_v65)) := by
  simp only [ops, List.drop_succ_cons, List.drop_zero, List.take_succ_cons, List.take_zero]
  after_results_simp
  rfl

/-- Operations 90–97: the second layer's real part (maxima). -/
theorem stage_maxLin2Re (V : Valuation τ sig (Elt Ideal)) :
    after (((ops (F := Ideal)).drop 90).take 8) V (Proc.devRef .tc main_v83)
      = lin2Re (F := Ideal) net (V (Proc.devRef .tc main_v70)) (V (Proc.devRef .tc main_v75)) (V (Proc.devRef .tc main_arg6)) (V (Proc.devRef .tc main_arg7)) (V (Proc.devRef .tc main_arg8)) := by
  simp only [ops, List.drop_succ_cons, List.drop_zero, List.take_succ_cons, List.take_zero]
  after_results_simp
  rfl

/-- Operations 98–105: the second layer's imaginary part (maxima). -/
theorem stage_maxLin2Im (V : Valuation τ sig (Elt Ideal)) :
    after (((ops (F := Ideal)).drop 98).take 8) V (Proc.devRef .tc main_v91)
      = lin2Im (F := Ideal) net (V (Proc.devRef .tc main_v70)) (V (Proc.devRef .tc main_v75)) (V (Proc.devRef .tc main_arg6)) (V (Proc.devRef .tc main_arg7)) (V (Proc.devRef .tc main_arg9)) := by
  simp only [ops, List.drop_succ_cons, List.drop_zero, List.take_succ_cons, List.take_zero]
  after_results_simp
  rfl

/-- Operations 106–114: the real gate, the logistic function of the two real outputs added. -/
theorem stage_gateRe (V : Valuation τ sig (Elt Ideal)) :
    after (((ops (F := Ideal)).drop 106).take 9) V (Proc.devRef .tc main_v98)
      = ChannelGate.logistic (F := Ideal) net (addf (V (Proc.devRef .tc main_v41)) (V (Proc.devRef .tc main_v83))) := by
  simp only [ops, List.drop_succ_cons, List.drop_zero, List.take_succ_cons, List.take_zero]
  after_results_simp
  rfl

/-- Operations 115–138: the imaginary gate (the logistic function of the two imaginary outputs added), the two gates
    broadcast over height and width, the two planes of the complex product, stacked. -/
theorem stage_stack (V : Valuation τ sig (Elt Ideal)) :
    after (((ops (F := Ideal)).drop 115).take 24) V (Proc.devRef .tc main_v120)
      = stack (V (Proc.devRef .tc main_arg0)) (V (Proc.devRef .tc main_arg1)) (V (Proc.devRef .tc main_v98))
        (ChannelGate.logistic (F := Ideal) net (addf (V (Proc.devRef .tc main_v49)) (V (Proc.devRef .tc main_v91)))) := by
  simp only [ops, List.drop_succ_cons, List.drop_zero, List.take_succ_cons, List.take_zero]
  after_results_simp
  rfl

/-! ## Each stage's value in the final contents

The stage's reference is written by no later operation, and the references the stage reads are written by no operation
from the stage's first on: all are read in the final contents. -/

theorem fin_mean0 :
    after (ops (F := Ideal)) W (Proc.devRef .tc main_v2)
      = meanHW (after (ops (F := Ideal)) W (Proc.devRef .tc main_arg0)) := by
  rw [final_of_stage W 0 5 5 rfl main_v2 (by decide), stage_mean0,
    ← final_at W 0 main_arg0 (by decide)]

theorem fin_mean1 :
    after (ops (F := Ideal)) W (Proc.devRef .tc main_v5)
      = meanHW (after (ops (F := Ideal)) W (Proc.devRef .tc main_arg1)) := by
  rw [final_of_stage W 5 5 10 rfl main_v5 (by decide), stage_mean1,
    ← final_at W 5 main_arg1 (by decide)]

theorem fin_max0 :
    after (ops (F := Ideal)) W (Proc.devRef .tc main_v6)
      = maxHW (after (ops (F := Ideal)) W (Proc.devRef .tc main_arg0)) := by
  rw [final_of_stage W 10 2 12 rfl main_v6 (by decide), stage_max0,
    ← final_at W 10 main_arg0 (by decide)]

theorem fin_max1 :
    after (ops (F := Ideal)) W (Proc.devRef .tc main_v7)
      = maxHW (after (ops (F := Ideal)) W (Proc.devRef .tc main_arg1)) := by
  rw [final_of_stage W 12 2 14 rfl main_v7 (by decide), stage_max1,
    ← final_at W 12 main_arg1 (by decide)]

theorem fin_meanLin1Re :
    after (ops (F := Ideal)) W (Proc.devRef .tc main_v15)
      = lin1Re (F := Ideal) net (after (ops (F := Ideal)) W (Proc.devRef .tc main_v2)) (after (ops (F := Ideal)) W (Proc.devRef .tc main_v5)) (after (ops (F := Ideal)) W (Proc.devRef .tc main_arg2)) (after (ops (F := Ideal)) W (Proc.devRef .tc main_arg3)) (after (ops (F := Ideal)) W (Proc.devRef .tc main_arg4)) := by
  rw [final_of_stage W 14 8 22 rfl main_v15 (by decide), stage_meanLin1Re,
    ← final_at W 14 main_v2 (by decide),
    ← final_at W 14 main_v5 (by decide),
    ← final_at W 14 main_arg2 (by decide),
    ← final_at W 14 main_arg3 (by decide),
    ← final_at W 14 main_arg4 (by decide)]

theorem fin_meanLin1Im :
    after (ops (F := Ideal)) W (Proc.devRef .tc main_v23)
      = lin1Im (F := Ideal) net (after (ops (F := Ideal)) W (Proc.devRef .tc main_v2)) (after (ops (F := Ideal)) W (Proc.devRef .tc main_v5)) (after (ops (F := Ideal)) W (Proc.devRef .tc main_arg2)) (after (ops (F := Ideal)) W (Proc.devRef .tc main_arg3)) (after (ops (F := Ideal)) W (Proc.devRef .tc main_arg5)) := by
  rw [final_of_stage W 22 8 30 rfl main_v23 (by decide), stage_meanLin1Im,
    ← final_at W 22 main_v2 (by decide),
    ← final_at W 22 main_v5 (by decide),
    ← final_at W 22 main_arg2 (by decide),
    ← final_at W 22 main_arg3 (by decide),
    ← final_at W 22 main_arg5 (by decide)]

theorem fin_meanLeakyRe :
    after (ops (F := Ideal)) W (Proc.devRef .tc main_v28)
      = leaky (F := Ideal) net (after (ops (F := Ideal)) W (Proc.devRef .tc main_v15)) := by
  rw [final_of_stage W 30 7 37 rfl main_v28 (by decide), stage_meanLeakyRe,
    ← final_at W 30 main_v15 (by decide)]

theorem fin_meanLeakyIm :
    after (ops (F := Ideal)) W (Proc.devRef .tc main_v33)
      = leaky (F := Ideal) net (after (ops (F := Ideal)) W (Proc.devRef .tc main_v23)) := by
  rw [final_of_stage W 37 7 44 rfl main_v33 (by decide), stage_meanLeakyIm,
    ← final_at W 37 main_v23 (by decide)]

theorem fin_meanLin2Re :
    after (ops (F := Ideal)) W (Proc.devRef .tc main_v41)
      = lin2Re (F := Ideal) net (after (ops (F := Ideal)) W (Proc.devRef .tc main_v28)) (after (ops (F := Ideal)) W (Proc.devRef .tc main_v33)) (after (ops (F := Ideal)) W (Proc.devRef .tc main_arg6)) (after (ops (F := Ideal)) W (Proc.devRef .tc main_arg7)) (after (ops (F := Ideal)) W (Proc.devRef .tc main_arg8)) := by
  rw [final_of_stage W 44 8 52 rfl main_v41 (by decide), stage_meanLin2Re,
    ← final_at W 44 main_v28 (by decide),
    ← final_at W 44 main_v33 (by decide),
    ← final_at W 44 main_arg6 (by decide),
    ← final_at W 44 main_arg7 (by decide),
    ← final_at W 44 main_arg8 (by decide)]

theorem fin_meanLin2Im :
    after (ops (F := Ideal)) W (Proc.devRef .tc main_v49)
      = lin2Im (F := Ideal) net (after (ops (F := Ideal)) W (Proc.devRef .tc main_v28)) (after (ops (F := Ideal)) W (Proc.devRef .tc main_v33)) (after (ops (F := Ideal)) W (Proc.devRef .tc main_arg6)) (after (ops (F := Ideal)) W (Proc.devRef .tc main_arg7)) (after (ops (F := Ideal)) W (Proc.devRef .tc main_arg9)) := by
  rw [final_of_stage W 52 8 60 rfl main_v49 (by decide), stage_meanLin2Im,
    ← final_at W 52 main_v28 (by decide),
    ← final_at W 52 main_v33 (by decide),
    ← final_at W 52 main_arg6 (by decide),
    ← final_at W 52 main_arg7 (by decide),
    ← final_at W 52 main_arg9 (by decide)]

theorem fin_maxLin1Re :
    after (ops (F := Ideal)) W (Proc.devRef .tc main_v57)
      = lin1Re (F := Ideal) net (after (ops (F := Ideal)) W (Proc.devRef .tc main_v6)) (after (ops (F := Ideal)) W (Proc.devRef .tc main_v7)) (after (ops (F := Ideal)) W (Proc.devRef .tc main_arg2)) (after (ops (F := Ideal)) W (Proc.devRef .tc main_arg3)) (after (ops (F := Ideal)) W (Proc.devRef .tc main_arg4)) := by
  rw [final_of_stage W 60 8 68 rfl main_v57 (by decide), stage_maxLin1Re,
    ← final_at W 60 main_v6 (by decide),
    ← final_at W 60 main_v7 (by decide),
    ← final_at W 60 main_arg2 (by decide),
    ← final_at W 60 main_arg3 (by decide),
    ← final_at W 60 main_arg4 (by decide)]

theorem fin_maxLin1Im :
    after (ops (F := Ideal)) W (Proc.devRef .tc main_v65)
      = lin1Im (F := Ideal) net (after (ops (F := Ideal)) W (Proc.devRef .tc main_v6)) (after (ops (F := Ideal)) W (Proc.devRef .tc main_v7)) (after (ops (F := Ideal)) W (Proc.devRef .tc main_arg2)) (after (ops (F := Ideal)) W (Proc.devRef .tc main_arg3)) (after (ops (F := Ideal)) W (Proc.devRef .tc main_arg5)) := by
  rw [final_of_stage W 68 8 76 rfl main_v65 (by decide), stage_maxLin1Im,
    ← final_at W 68 main_v6 (by decide),
    ← final_at W 68 main_v7 (by decide),
    ← final_at W 68 main_arg2 (by decide),
    ← final_at W 68 main_arg3 (by decide),
    ← final_at W 68 main_arg5 (by decide)]

theorem fin_maxLeakyRe :
    after (ops (F := Ideal)) W (Proc.devRef .tc main_v70)
      = leaky (F := Ideal) net (after (ops (F := Ideal)) W (Proc.devRef .tc main_v57)) := by
  rw [final_of_stage W 76 7 83 rfl main_v70 (by decide), stage_maxLeakyRe,
    ← final_at W 76 main_v57 (by decide)]

theorem fin_maxLeakyIm :
    after (ops (F := Ideal)) W (Proc.devRef .tc main_v75)
      = leaky (F := Ideal) net (after (ops (F := Ideal)) W (Proc.devRef .tc main_v65)) := by
  rw [final_of_stage W 83 7 90 rfl main_v75 (by decide), stage_maxLeakyIm,
    ← final_at W 83 main_v65 (by decide)]

theorem fin_maxLin2Re :
    after (ops (F := Ideal)) W (Proc.devRef .tc main_v83)
      = lin2Re (F := Ideal) net (after (ops (F := Ideal)) W (Proc.devRef .tc main_v70)) (after (ops (F := Ideal)) W (Proc.devRef .tc main_v75)) (after (ops (F := Ideal)) W (Proc.devRef .tc main_arg6)) (after (ops (F := Ideal)) W (Proc.devRef .tc main_arg7)) (after (ops (F := Ideal)) W (Proc.devRef .tc main_arg8)) := by
  rw [final_of_stage W 90 8 98 rfl main_v83 (by decide), stage_maxLin2Re,
    ← final_at W 90 main_v70 (by decide),
    ← final_at W 90 main_v75 (by decide),
    ← final_at W 90 main_arg6 (by decide),
    ← final_at W 90 main_arg7 (by decide),
    ← final_at W 90 main_arg8 (by decide)]

theorem fin_maxLin2Im :
    after (ops (F := Ideal)) W (Proc.devRef .tc main_v91)
      = lin2Im (F := Ideal) net (after (ops (F := Ideal)) W (Proc.devRef .tc main_v70)) (after (ops (F := Ideal)) W (Proc.devRef .tc main_v75)) (after (ops (F := Ideal)) W (Proc.devRef .tc main_arg6)) (after (ops (F := Ideal)) W (Proc.devRef .tc main_arg7)) (after (ops (F := Ideal)) W (Proc.devRef .tc main_arg9)) := by
  rw [final_of_stage W 98 8 106 rfl main_v91 (by decide), stage_maxLin2Im,
    ← final_at W 98 main_v70 (by decide),
    ← final_at W 98 main_v75 (by decide),
    ← final_at W 98 main_arg6 (by decide),
    ← final_at W 98 main_arg7 (by decide),
    ← final_at W 98 main_arg9 (by decide)]

theorem fin_gateRe :
    after (ops (F := Ideal)) W (Proc.devRef .tc main_v98)
      = ChannelGate.logistic (F := Ideal) net (addf (after (ops (F := Ideal)) W (Proc.devRef .tc main_v41)) (after (ops (F := Ideal)) W (Proc.devRef .tc main_v83))) := by
  rw [final_of_stage W 106 9 115 rfl main_v98 (by decide), stage_gateRe,
    ← final_at W 106 main_v41 (by decide),
    ← final_at W 106 main_v83 (by decide)]

theorem fin_stack :
    after (ops (F := Ideal)) W (Proc.devRef .tc main_v120)
      = stack (after (ops (F := Ideal)) W (Proc.devRef .tc main_arg0)) (after (ops (F := Ideal)) W (Proc.devRef .tc main_arg1)) (after (ops (F := Ideal)) W (Proc.devRef .tc main_v98))
        (ChannelGate.logistic (F := Ideal) net (addf (after (ops (F := Ideal)) W (Proc.devRef .tc main_v49)) (after (ops (F := Ideal)) W (Proc.devRef .tc main_v91)))) := by
  rw [final_of_stage W 115 24 139 rfl main_v120 (by decide), stage_stack,
    ← final_at W 115 main_arg0 (by decide),
    ← final_at W 115 main_arg1 (by decide),
    ← final_at W 115 main_v98 (by decide),
    ← final_at W 115 main_v49 (by decide),
    ← final_at W 115 main_v91 (by decide)]

/-! ## The arguments are written by no operation -/

theorem fin_arg0 : after (ops (F := Ideal)) W (Proc.devRef .tc main_arg0) = W (Proc.devRef .tc main_arg0) :=
  after_frame writes_outs (by decide) W

theorem fin_arg1 : after (ops (F := Ideal)) W (Proc.devRef .tc main_arg1) = W (Proc.devRef .tc main_arg1) :=
  after_frame writes_outs (by decide) W

theorem fin_arg2 : after (ops (F := Ideal)) W (Proc.devRef .tc main_arg2) = W (Proc.devRef .tc main_arg2) :=
  after_frame writes_outs (by decide) W

theorem fin_arg3 : after (ops (F := Ideal)) W (Proc.devRef .tc main_arg3) = W (Proc.devRef .tc main_arg3) :=
  after_frame writes_outs (by decide) W

theorem fin_arg4 : after (ops (F := Ideal)) W (Proc.devRef .tc main_arg4) = W (Proc.devRef .tc main_arg4) :=
  after_frame writes_outs (by decide) W

theorem fin_arg5 : after (ops (F := Ideal)) W (Proc.devRef .tc main_arg5) = W (Proc.devRef .tc main_arg5) :=
  after_frame writes_outs (by decide) W

theorem fin_arg6 : after (ops (F := Ideal)) W (Proc.devRef .tc main_arg6) = W (Proc.devRef .tc main_arg6) :=
  after_frame writes_outs (by decide) W

theorem fin_arg7 : after (ops (F := Ideal)) W (Proc.devRef .tc main_arg7) = W (Proc.devRef .tc main_arg7) :=
  after_frame writes_outs (by decide) W

theorem fin_arg8 : after (ops (F := Ideal)) W (Proc.devRef .tc main_arg8) = W (Proc.devRef .tc main_arg8) :=
  after_frame writes_outs (by decide) W

theorem fin_arg9 : after (ops (F := Ideal)) W (Proc.devRef .tc main_arg9) = W (Proc.devRef .tc main_arg9) :=
  after_frame writes_outs (by decide) W

/-! ## The result -/

/-- From any contents `W`, the line leaves in the result's reference the folded function of the ten arguments'
    contents. -/
theorem value :
    after (ops (F := Ideal)) W (Proc.devRef .tc main_v120)
      = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [fin_stack W, fin_gateRe W, fin_meanLin2Re W, fin_meanLin2Im W, fin_maxLin2Re W, fin_maxLin2Im W,
    fin_meanLeakyRe W, fin_meanLeakyIm W, fin_maxLeakyRe W, fin_maxLeakyIm W,
    fin_meanLin1Re W, fin_meanLin1Im W, fin_maxLin1Re W, fin_maxLin1Im W,
    fin_mean0 W, fin_mean1 W, fin_max0 W, fin_max1 W,
    fin_arg0 W, fin_arg1 W, fin_arg2 W, fin_arg3 W, fin_arg4 W, fin_arg5 W, fin_arg6 W, fin_arg7 W, fin_arg8 W, fin_arg9 W]
  rfl

end Fold

/-- On every device, from any memory with zero counters: every weakly fair execution of @main terminates with the
    result at the folded function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v120)
          = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v120).trans (value _),
      (h c main_arg0).trans (fin_arg0 _),
      (h c main_arg1).trans (fin_arg1 _),
      (h c main_arg2).trans (fin_arg2 _),
      (h c main_arg3).trans (fin_arg3 _),
      (h c main_arg4).trans (fin_arg4 _),
      (h c main_arg5).trans (fin_arg5 _),
      (h c main_arg6).trans (fin_arg6 _),
      (h c main_arg7).trans (fin_arg7 _),
      (h c main_arg8).trans (fin_arg8 _),
      (h c main_arg9).trans (fin_arg9 _)⟩)
    (run_seq scopedRefs_eq scopedSems_eq defs main (fun _ => ops) main_eq (fun _ => ops_sub) m ρ)

end Cert.ReferenceIdeal.RefV

end
-- ==== Proof.PoolBridge.lean ====
/-
  The two poolings of a [16, 256, 128, 128] array over its two trailing axes, read two ways.

  Flattened to [4096, 16384], row b * 256 + c holds x(b, c, h, w) at column k = h * 128 + w, so column k of that row is
  the cell (b, c, k / 128, k % 128), and k ↦ (b, c, k / 128, k % 128) is a bijection from the 16384 columns onto the
  cells whose two leading coordinates are (b, c). Hence the row's sum is the sum over those cells and the row's fold of
  max is the fold over those cells. For the mean, the row sum times 2^-14 equals the sum divided by 16384 on every
  extended real, because dividing by a nonzero real is multiplying by its reciprocal.
-/
import proofs.«122062_j31482110280381_2_alg».proof.Proof.Spec
import Idealize.ShloMosaic.PureOps.Ideal.Laws
import Idealize.ShloMosaic.Lib.Pipeline.Value
import Idealize.ShloMosaic.Lib.ValueIdx

noncomputable section
namespace Cert.ChannelGate
open Idealize.ShloMosaic Idealize.ShloMosaic.ValueIdx

/-- The pattern 0x46800000 denotes the real 16384 = 2^14. -/
theorem ofBits_16384 : Ideal.ofBits .f32 0x46800000#32 = ((16384 : ℝ) : EReal) := by
  simp [Ideal.ofBits, Ideal.ieee, -EReal.coe_mul]; norm_num

/-- The pattern 0x38800000 denotes the real 1/16384 = 2^-14. -/
theorem ofBits_inv16384 : Ideal.ofBits .f32 0x38800000#32 = ((1 / 16384 : ℝ) : EReal) := by
  simp [Ideal.ofBits, Ideal.ieee, -EReal.coe_mul]; norm_num

/-- The cell of the four-axis array that column k of flattened row (b, c) holds: height k / 128, width k % 128. -/
def cell (b : Fin 16) (c : Fin 256) (k : Fin 16384) : X4.Idx :=
  ix4 b c (⟨k.val / 128, by have := k.isLt; omega⟩ : Fin 128) (⟨k.val % 128, by omega⟩ : Fin 128)

/-- Distinct columns of a row are distinct cells. -/
theorem cell_injective (b : Fin 16) (c : Fin 256) : Function.Injective (cell b c) := by
  intro k k' h
  have h2 := congrArg (fun i : X4.Idx => (i 2).val) h
  have h3 := congrArg (fun i : X4.Idx => (i 3).val) h
  simp only [cell] at h2 h3
  refine Fin.ext ?_
  have e2 : k.val / 128 = k'.val / 128 := h2
  have e3 : k.val % 128 = k'.val % 128 := h3
  omega

/-- The flattened array at row b * 256 + c, column k, is the four-axis array at that cell. -/
theorem flat_read (x : X4.Idx → EReal) (hc : X4.ShapeCasts X2) (b : Fin 16) (c : Fin 256) (k : Fin 16384)
    (hR : b.val * 256 + c.val < 4096) :
    shapeCast X2 x hc (ix2 (⟨b.val * 256 + c.val, hR⟩ : Fin 4096) k) = x (cell b c k) := by
  refine shapeCast_apply x hc _ _ ?_
  rw [Shape.rowMajor_val_four, Shape.rowMajor_val_two]
  show ((b.val * 256 + c.val) * 128 + k.val / 128) * 128 + k.val % 128 = (b.val * 256 + c.val) * 16384 + k.val
  omega

/-- The cells that the reduction over the two trailing axes sends to (b, c) are exactly the cells of row (b, c). -/
theorem filter_drop_eq_map (h' : X4.ReducesTo [2, 3] P2) (b : Fin 16) (c : Fin 256) :
    (Finset.univ.filter fun i : X4.Idx => h'.drop i = ix2 b c)
      = Finset.univ.map ⟨cell b c, cell_injective b c⟩ := by
  ext i
  simp only [Finset.mem_filter, Finset.mem_univ, true_and, Finset.mem_map, Function.Embedding.coeFn_mk]
  have d0 : ((h'.drop i 0 : Fin 16) : Nat) = (i 0 : Fin 16) := h'.drop_apply_val_of_eq i 0 0
  have d1 : ((h'.drop i 1 : Fin 256) : Nat) = (i 1 : Fin 256) := h'.drop_apply_val_of_eq i 1 1
  constructor
  · intro hi
    have e0 : (i 0 : Fin 16) = b := Fin.ext (by rw [← d0, hi])
    have e1 : (i 1 : Fin 256) = c := Fin.ext (by rw [← d1, hi])
    have l2 : ((i 2 : Fin 128) : Nat) < 128 := (i 2).isLt
    have l3 : ((i 3 : Fin 128) : Nat) < 128 := (i 3).isLt
    refine ⟨⟨((i 2 : Fin 128) : Nat) * 128 + ((i 3 : Fin 128) : Nat), by omega⟩, ?_⟩
    funext a
    match a with
    | ⟨0, _⟩ => exact e0.symm
    | ⟨1, _⟩ => exact e1.symm
    | ⟨2, _⟩ => exact Fin.ext (by show (((i 2 : Fin 128) : Nat) * 128 + ((i 3 : Fin 128) : Nat)) / 128 = ((i 2 : Fin 128) : Nat); omega)
    | ⟨3, _⟩ => exact Fin.ext (by show (((i 2 : Fin 128) : Nat) * 128 + ((i 3 : Fin 128) : Nat)) % 128 = ((i 3 : Fin 128) : Nat); omega)
  · rintro ⟨k, rfl⟩
    funext a
    match a with
    | ⟨0, _⟩ => exact Fin.ext (h'.drop_apply_val_of_eq (cell b c k) 0 0)
    | ⟨1, _⟩ => exact Fin.ext (h'.drop_apply_val_of_eq (cell b c k) 1 1)

/-- pooled mean: kernel arrangement (flatten, row sum, times 2^-14, reshape the column to [16,256]) = reference arrangement (sum over the two trailing axes from 0, divided by 16384) -/
theorem rowMean_flat_eq (x : FVec Ideal X4 .f32) (hc : X4.ShapeCasts X2) (hc' : C2.ShapeCasts P2)
    (h' : X4.ReducesTo [2, 3] P2) (hS : 0 < (⟨0, ![]⟩ : Shape).numel)
    (hb : (⟨0, ![]⟩ : Shape).BroadcastsInDim P2 (![] : Fin 0 → Fin P2.rank)) :
    shapeCast P2 (rowMean (shapeCast X2 x hc)) hc'
      = Host.divf (Host.reduceAdd (F := Ideal) x (constant ⟨0, ![]⟩ .f32 0x00000000#32) h' hS)
          (broadcastInDim P2 ![] hb (constant (F := Ideal) ⟨0, ![]⟩ .f32 0x46800000#32)) := by
  funext j
  obtain ⟨b, c, rfl⟩ : ∃ (b : Fin 16) (c : Fin 256), j = ix2 b c := ⟨j 0, j 1, eq_ix2 j⟩
  have hR : b.val * 256 + c.val < 4096 := by have := b.isLt; have := c.isLt; omega
  -- the kernel's side: the column entry of row b * 256 + c, its sum read cell by cell
  have hL : shapeCast P2 (rowMean (shapeCast X2 x hc)) hc' (ix2 b c)
      = (∑ k : Fin 16384, x (cell b c k)) * Ideal.ofBits .f32 0x38800000#32 := by
    refine (shapeCast_apply _ hc' (ix2 b c) (ix2 (⟨b.val * 256 + c.val, hR⟩ : Fin 4096) (0 : Fin 1)) ?_).trans ?_
    · rw [Shape.rowMajor_val_two, Shape.rowMajor_val_two]
      show (b.val * 256 + c.val) * 1 + 0 = b.val * 256 + c.val
      omega
    · show (∑ k : Fin 16384, shapeCast X2 x hc (ix2 (⟨b.val * 256 + c.val, hR⟩ : Fin 4096) k))
          * Ideal.ofBits .f32 0x38800000#32 = _
      exact congrArg (fun s => s * Ideal.ofBits .f32 0x38800000#32)
        (Finset.sum_congr rfl fun k _ => flat_read x hc b c k hR)
  -- the reference's side: zero plus the sum over the cells that drop to (b, c), which are the row's cells
  have hA : Host.reduceAdd (F := Ideal) x (constant ⟨0, ![]⟩ .f32 0x00000000#32) h' hS (ix2 b c)
      = ∑ k : Fin 16384, x (cell b c k) := by
    show Ideal.ofBits .f32 0x00000000#32 + ∑ i ∈ Finset.univ.filter (fun i => h'.drop i = ix2 b c), x i = _
    rw [Ideal.ofBits_zero_f32, zero_add, filter_drop_eq_map, Finset.sum_map]
    rfl
  have hB : broadcastInDim P2 ![] hb (constant (F := Ideal) ⟨0, ![]⟩ .f32 0x46800000#32) (ix2 b c)
      = ((16384 : ℝ) : EReal) := by
    rw [broadcastInDim_apply ![] hb _ (ix2 b c) ix0 (fun a => a.elim0)]
    exact ofBits_16384
  rw [hL]
  show _ = Ideal.div _ _
  rw [hA, hB, ofBits_inv16384, Ideal.div_coe (by norm_num)]

/-- pooled maximum: the fold of max over each flattened row from the pattern 0xFF800000 = the host's maximum-reduce over the two trailing axes from the same initial value -/
theorem rowMax_flat_eq (x : FVec Ideal X4 .f32) (hc : X4.ShapeCasts X2) (hc' : C2.ShapeCasts P2)
    (h' : X4.ReducesTo [2, 3] P2) (hS : 0 < (⟨0, ![]⟩ : Shape).numel) :
    shapeCast P2 (rowMax (shapeCast X2 x hc)) hc'
      = Host.reduce (FloatOps.maximumf (F := Ideal) (φ := .f32)) x (constant (F := Ideal) ⟨0, ![]⟩ .f32 0xFF800000#32) h' hS := by
  funext j
  obtain ⟨b, c, rfl⟩ : ∃ (b : Fin 16) (c : Fin 256), j = ix2 b c := ⟨j 0, j 1, eq_ix2 j⟩
  have hR : b.val * 256 + c.val < 4096 := by have := b.isLt; have := c.isLt; omega
  have hL : shapeCast P2 (rowMax (shapeCast X2 x hc)) hc' (ix2 b c)
      = (Finset.univ : Finset (Fin 16384)).fold max (Ideal.ofBits .f32 0xFF800000#32) fun k => x (cell b c k) := by
    refine (shapeCast_apply _ hc' (ix2 b c) (ix2 (⟨b.val * 256 + c.val, hR⟩ : Fin 4096) (0 : Fin 1)) ?_).trans ?_
    · rw [Shape.rowMajor_val_two, Shape.rowMajor_val_two]
      show (b.val * 256 + c.val) * 1 + 0 = b.val * 256 + c.val
      omega
    · unfold rowMax
      exact Finset.fold_congr fun k _ => flat_read x hc b c k hR
  rw [hL, Host.reduce_eq_fold, filter_drop_eq_map, Finset.fold_map]
  rfl

end Cert.ChannelGate
end
-- ==== Proof.GateBridge.lean ====
/-
  The two arrangements of the gated output agree, index by index.

  One side flattens the inputs to [4096, 16384] (row = batch * 256 + channel, column = height * 128 + width), packs the
  two [16, 256] gates as one [2, 4096, 1] array (gate p of row r at (p, r, 0)), forms the complex product row by row in
  [2, 4096, 16384] and reshapes it to [2, 16, 256, 128, 128]. The other side broadcasts each gate over height and width,
  multiplies, subtracts / adds, and stacks the two planes along a new leading axis. At the index (s, b, c, h, w) both
  read, for s = 0, x0[b,c,h,w] * gr[b,c] - x1[b,c,h,w] * gi[b,c], and for s = 1, x0[b,c,h,w] * gi[b,c] + x1[b,c,h,w] * gr[b,c]:
  every reshape preserves the row-major position, every broadcast reads the operand at the coordinates it keeps, and a
  concatenation along the leading axis of two one-plane pieces reads piece s at plane 0.
-/
import proofs.«122062_j31482110280381_2_alg».proof.Proof.Spec
import Idealize.ShloMosaic.Lib.Pipeline.Value
import Idealize.ShloMosaic.Lib.ValueIdx

noncomputable section
namespace Cert.ChannelGate
open Idealize.ShloMosaic Idealize.ShloMosaic.ValueIdx

abbrev V1 : Shape := ⟨1, ![4096]⟩
abbrev R2 : Shape := ⟨2, ![1, 4096]⟩
abbrev T2 : Shape := ⟨2, ![2, 4096]⟩
abbrev Q4 : Shape := ⟨4, ![16, 256, 1, 1]⟩
abbrev U5 : Shape := ⟨5, ![1, 16, 256, 128, 128]⟩

/-! ## The flattened side, one layout operation at a time -/

/-- The flattened input at row b * 256 + c and column h * 128 + w is the input at (b, c, h, w): both indices have the
    row-major position ((b * 256 + c) * 128 + h) * 128 + w. -/
theorem flat_apply (x : FVec Ideal X4 .f32) (hc : X4.ShapeCasts X2) (b : Fin 16) (c : Fin 256) (h w : Fin 128)
    (R : Fin 4096) (k : Fin 16384) (hR : R.val = b.val * 256 + c.val) (hk : k.val = h.val * 128 + w.val) :
    shapeCast X2 x hc (ix2 R k) = x (ix4 b c h w) := by
  refine shapeCast_apply x hc (ix2 R k) (ix4 b c h w) ?_
  rw [Shape.rowMajor_val_four, Shape.rowMajor_val_two]
  show ((b.val * 256 + c.val) * 128 + h.val) * 128 + w.val = R.val * 16384 + k.val
  omega

/-- A gate flattened to [4096] and laid out as the single row of a [1, 4096] array, read at column b * 256 + c, is the
    gate at (b, c). -/
theorem row_apply (g : FVec Ideal P2 .f32) (hc4 : P2.ShapeCasts V1)
    (hb1 : V1.BroadcastsInDim R2 (![1] : Fin 1 → Fin R2.rank)) (b : Fin 16) (c : Fin 256)
    (R : Fin 4096) (hR : R.val = b.val * 256 + c.val) :
    broadcastInDim R2 ![1] hb1 (shapeCast V1 g hc4) (ix2 (0 : Fin 1) R) = g (ix2 b c) := by
  have e1 := broadcastInDim_apply ![1] hb1 (shapeCast V1 g hc4) (ix2 (0 : Fin 1) R) (ix1 R) (by
    intro a
    match a with
    | ⟨0, _⟩ => show R.val = if (4096 : Nat) = 1 then 0 else R.val; simp)
  have e2 := shapeCast_apply g hc4 (ix1 R) (ix2 b c) (by
    rw [Shape.rowMajor_val_two, Shape.rowMajor_val_one]
    show b.val * 256 + c.val = R.val
    omega)
  exact e1.trans e2

/-- Two [1, 4096] rows stacked to [2, 4096] and reshaped to [2, 4096, 1]: the entry (0, r, 0) is the first row at r
    (position 0 * 4096 + r on both sides of the reshape, and plane 0 of the stack is the first piece). -/
theorem pack_apply0 (A B : FVec Ideal R2 .f32) (hcat : Shape.Concatenates [R2, R2] T2 0) (hc3 : T2.ShapeCasts G3)
    (R : Fin 4096) :
    shapeCast G3 (concatenate T2 0 [⟨R2, A⟩, ⟨R2, B⟩] hcat) hc3 (ix3 (0 : Fin 2) R (0 : Fin 1))
      = A (ix2 (0 : Fin 1) R) := by
  have e1 := shapeCast_apply (concatenate T2 0 [⟨R2, A⟩, ⟨R2, B⟩] hcat) hc3 (ix3 (0 : Fin 2) R (0 : Fin 1))
    (ix2 (0 : Fin 2) R) (by
      rw [Shape.rowMajor_val_two, Shape.rowMajor_val_three]
      show 0 * 4096 + R.val = (0 * 4096 + R.val) * 1 + 0
      omega)
  have e2 := concatenate_pair_apply_left (t := T2) (s₁ := R2) (s₂ := R2) 0 A B hcat (ix2 (0 : Fin 2) R) rfl
    (ix2 (0 : Fin 1) R) (by
      intro a
      match a with
      | ⟨0, _⟩ => rfl
      | ⟨1, _⟩ => rfl)
  exact e1.trans e2

/-- … and the entry (1, r, 0) is the second row at r (position 1 * 4096 + r; plane 1 of the stack is the second piece,
    read at its plane 1 - 1 = 0). -/
theorem pack_apply1 (A B : FVec Ideal R2 .f32) (hcat : Shape.Concatenates [R2, R2] T2 0) (hc3 : T2.ShapeCasts G3)
    (R : Fin 4096) :
    shapeCast G3 (concatenate T2 0 [⟨R2, A⟩, ⟨R2, B⟩] hcat) hc3 (ix3 (1 : Fin 2) R (0 : Fin 1))
      = B (ix2 (0 : Fin 1) R) := by
  have e1 := shapeCast_apply (concatenate T2 0 [⟨R2, A⟩, ⟨R2, B⟩] hcat) hc3 (ix3 (1 : Fin 2) R (0 : Fin 1))
    (ix2 (1 : Fin 2) R) (by
      rw [Shape.rowMajor_val_two, Shape.rowMajor_val_three]
      show 1 * 4096 + R.val = (1 * 4096 + R.val) * 1 + 0
      omega)
  have e2 := concatenate_pair_apply_right (t := T2) (s₁ := R2) (s₂ := R2) 0 A B hcat (ix2 (1 : Fin 2) R) rfl rfl
    (ix2 (0 : Fin 1) R) (by
      intro a ha
      match a, ha with
      | ⟨0, _⟩, ha => exact absurd rfl ha
      | ⟨1, _⟩, _ => rfl) (by rfl)
  exact e1.trans e2

/-- A [2, 4096, 16384] array reshaped to [2, 16, 256, 128, 128], read at (s, b, c, h, w), is the array at
    (s, b * 256 + c, h * 128 + w): both have the row-major position (((s * 16 + b) * 256 + c) * 128 + h) * 128 + w. -/
theorem out_apply (y : FVec Ideal O3 .f32) (hc5 : O3.ShapeCasts O5) (s : Fin 2) (b : Fin 16) (c : Fin 256)
    (h w : Fin 128) (R : Fin 4096) (k : Fin 16384) (hR : R.val = b.val * 256 + c.val)
    (hk : k.val = h.val * 128 + w.val) :
    shapeCast O5 y hc5 (ix5 s b c h w) = y (ix3 s R k) := by
  refine shapeCast_apply y hc5 (ix5 s b c h w) (ix3 s R k) ?_
  rw [Shape.rowMajor_val_three, Shape.rowMajor_val_five]
  show (s.val * 4096 + R.val) * 16384 + k.val
      = (((s.val * 16 + b.val) * 256 + c.val) * 128 + h.val) * 128 + w.val
  omega

/-- Plane 0 of the row-by-row complex product: the real part. -/
theorem gated_plane0 (xr xi : X2.Idx → EReal) (g : G3.Idx → EReal) (R : Fin 4096) (k : Fin 16384) :
    gated xr xi g (ix3 (0 : Fin 2) R k)
      = xr (ix2 R k) * g (ix3 (0 : Fin 2) R (0 : Fin 1)) - xi (ix2 R k) * g (ix3 (1 : Fin 2) R (0 : Fin 1)) := by
  unfold gated
  exact if_pos rfl

/-- Plane 1 of the row-by-row complex product: the imaginary part. -/
theorem gated_plane1 (xr xi : X2.Idx → EReal) (g : G3.Idx → EReal) (R : Fin 4096) (k : Fin 16384) :
    gated xr xi g (ix3 (1 : Fin 2) R k)
      = xr (ix2 R k) * g (ix3 (1 : Fin 2) R (0 : Fin 1)) + xi (ix2 R k) * g (ix3 (0 : Fin 2) R (0 : Fin 1)) := by
  unfold gated
  exact if_neg (show ¬ ((1 : Fin 2).val = 0) by decide)

/-! ## The broadcast side, one layout operation at a time -/

/-- A gate broadcast to [16, 256, 1, 1] and then over height and width, read at (b, c, h, w), is the gate at (b, c):
    the unit axes are read at 0, the kept axes at b and c. -/
theorem gate_bcast_apply (g : FVec Ideal P2 .f32)
    (hb2 : P2.BroadcastsInDim Q4 (![0, 1] : Fin 2 → Fin Q4.rank))
    (hb4 : Q4.BroadcastsInDim X4 (![0, 1, 2, 3] : Fin 4 → Fin X4.rank))
    (b : Fin 16) (c : Fin 256) (h w : Fin 128) :
    broadcastInDim X4 ![0, 1, 2, 3] hb4 (broadcastInDim Q4 ![0, 1] hb2 g) (ix4 b c h w) = g (ix2 b c) := by
  have e1 := broadcastInDim_apply ![0, 1, 2, 3] hb4 (broadcastInDim Q4 ![0, 1] hb2 g) (ix4 b c h w)
    (ix4 b c (0 : Fin 1) (0 : Fin 1)) (by
      intro a
      match a with
      | ⟨0, _⟩ => show b.val = if (16 : Nat) = 1 then 0 else b.val; simp
      | ⟨1, _⟩ => show c.val = if (256 : Nat) = 1 then 0 else c.val; simp
      | ⟨2, _⟩ => show (0 : Nat) = if (1 : Nat) = 1 then 0 else h.val; simp
      | ⟨3, _⟩ => show (0 : Nat) = if (1 : Nat) = 1 then 0 else w.val; simp)
  have e2 := broadcastInDim_apply ![0, 1] hb2 g (ix4 b c (0 : Fin 1) (0 : Fin 1)) (ix2 b c) (by
      intro a
      match a with
      | ⟨0, _⟩ => show b.val = if (16 : Nat) = 1 then 0 else b.val; simp
      | ⟨1, _⟩ => show c.val = if (256 : Nat) = 1 then 0 else c.val; simp)
  exact e1.trans e2

/-- A [16, 256, 128, 128] array given a new leading unit axis, read at (0, b, c, h, w), is the array at (b, c, h, w). -/
theorem plane_apply (A : FVec Ideal X4 .f32)
    (hb5 : X4.BroadcastsInDim U5 (![1, 2, 3, 4] : Fin 4 → Fin U5.rank))
    (b : Fin 16) (c : Fin 256) (h w : Fin 128) :
    broadcastInDim U5 ![1, 2, 3, 4] hb5 A (ix5 (0 : Fin 1) b c h w) = A (ix4 b c h w) := by
  exact broadcastInDim_apply ![1, 2, 3, 4] hb5 A (ix5 (0 : Fin 1) b c h w) (ix4 b c h w) (by
      intro a
      match a with
      | ⟨0, _⟩ => show b.val = if (16 : Nat) = 1 then 0 else b.val; simp
      | ⟨1, _⟩ => show c.val = if (256 : Nat) = 1 then 0 else c.val; simp
      | ⟨2, _⟩ => show h.val = if (128 : Nat) = 1 then 0 else h.val; simp
      | ⟨3, _⟩ => show w.val = if (128 : Nat) = 1 then 0 else w.val; simp)

/-- Two one-plane pieces stacked along the leading axis: plane 0 of the stack is the first piece at its plane 0 … -/
theorem stack_apply0 (A B : FVec Ideal U5 .f32) (hcat5 : Shape.Concatenates [U5, U5] O5 0)
    (b : Fin 16) (c : Fin 256) (h w : Fin 128) :
    concatenate O5 0 [⟨U5, A⟩, ⟨U5, B⟩] hcat5 (ix5 (0 : Fin 2) b c h w) = A (ix5 (0 : Fin 1) b c h w) := by
  exact concatenate_pair_apply_left (t := O5) (s₁ := U5) (s₂ := U5) 0 A B hcat5 (ix5 (0 : Fin 2) b c h w) rfl
    (ix5 (0 : Fin 1) b c h w) (by
      intro a
      match a with
      | ⟨0, _⟩ => rfl
      | ⟨1, _⟩ => rfl
      | ⟨2, _⟩ => rfl
      | ⟨3, _⟩ => rfl
      | ⟨4, _⟩ => rfl)

/-- … and plane 1 of the stack is the second piece at its plane 1 - 1 = 0. -/
theorem stack_apply1 (A B : FVec Ideal U5 .f32) (hcat5 : Shape.Concatenates [U5, U5] O5 0)
    (b : Fin 16) (c : Fin 256) (h w : Fin 128) :
    concatenate O5 0 [⟨U5, A⟩, ⟨U5, B⟩] hcat5 (ix5 (1 : Fin 2) b c h w) = B (ix5 (0 : Fin 1) b c h w) := by
  exact concatenate_pair_apply_right (t := O5) (s₁ := U5) (s₂ := U5) 0 A B hcat5 (ix5 (1 : Fin 2) b c h w) rfl rfl
    (ix5 (0 : Fin 1) b c h w) (by
      intro a ha
      match a, ha with
      | ⟨0, _⟩, ha => exact absurd rfl ha
      | ⟨1, _⟩, _ => rfl
      | ⟨2, _⟩, _ => rfl
      | ⟨3, _⟩, _ => rfl
      | ⟨4, _⟩, _ => rfl) (by rfl)

/-! ## Each side at an index, plane by plane -/

/-- The flattened side at (0, b, c, h, w): the real part of the product of x[b,c,h,w] with the gate of (b, c). -/
theorem left_plane0 (x0 x1 : FVec Ideal X4 .f32) (gr gi : FVec Ideal P2 .f32)
    (hc : X4.ShapeCasts X2) (hc4 : P2.ShapeCasts V1)
    (hb1 : V1.BroadcastsInDim R2 (![1] : Fin 1 → Fin R2.rank))
    (hcat : Shape.Concatenates [R2, R2] T2 0) (hc3 : T2.ShapeCasts G3) (hc5 : O3.ShapeCasts O5)
    (b : Fin 16) (c : Fin 256) (h w : Fin 128) :
    shapeCast O5
        (gated (shapeCast X2 x0 hc) (shapeCast X2 x1 hc)
          (shapeCast G3
            (concatenate T2 0 [⟨R2, broadcastInDim R2 ![1] hb1 (shapeCast V1 gr hc4)⟩,
                               ⟨R2, broadcastInDim R2 ![1] hb1 (shapeCast V1 gi hc4)⟩] hcat) hc3)) hc5 (ix5 (0 : Fin 2) b c h w)
      = x0 (ix4 b c h w) * gr (ix2 b c) - x1 (ix4 b c h w) * gi (ix2 b c) := by
  have hRlt : b.val * 256 + c.val < 4096 := by have := b.isLt; have := c.isLt; omega
  have hklt : h.val * 128 + w.val < 16384 := by have := h.isLt; have := w.isLt; omega
  rw [out_apply _ hc5 (0 : Fin 2) b c h w ⟨b.val * 256 + c.val, hRlt⟩ ⟨h.val * 128 + w.val, hklt⟩ rfl rfl,
    gated_plane0, flat_apply x0 hc b c h w _ _ rfl rfl, flat_apply x1 hc b c h w _ _ rfl rfl,
    pack_apply0, pack_apply1, row_apply gr hc4 hb1 b c _ rfl, row_apply gi hc4 hb1 b c _ rfl]

/-- The flattened side at (1, b, c, h, w): the imaginary part. -/
theorem left_plane1 (x0 x1 : FVec Ideal X4 .f32) (gr gi : FVec Ideal P2 .f32)
    (hc : X4.ShapeCasts X2) (hc4 : P2.ShapeCasts V1)
    (hb1 : V1.BroadcastsInDim R2 (![1] : Fin 1 → Fin R2.rank))
    (hcat : Shape.Concatenates [R2, R2] T2 0) (hc3 : T2.ShapeCasts G3) (hc5 : O3.ShapeCasts O5)
    (b : Fin 16) (c : Fin 256) (h w : Fin 128) :
    shapeCast O5
        (gated (shapeCast X2 x0 hc) (shapeCast X2 x1 hc)
          (shapeCast G3
            (concatenate T2 0 [⟨R2, broadcastInDim R2 ![1] hb1 (shapeCast V1 gr hc4)⟩,
                               ⟨R2, broadcastInDim R2 ![1] hb1 (shapeCast V1 gi hc4)⟩] hcat) hc3)) hc5 (ix5 (1 : Fin 2) b c h w)
      = x0 (ix4 b c h w) * gi (ix2 b c) + x1 (ix4 b c h w) * gr (ix2 b c) := by
  have hRlt : b.val * 256 + c.val < 4096 := by have := b.isLt; have := c.isLt; omega
  have hklt : h.val * 128 + w.val < 16384 := by have := h.isLt; have := w.isLt; omega
  rw [out_apply _ hc5 (1 : Fin 2) b c h w ⟨b.val * 256 + c.val, hRlt⟩ ⟨h.val * 128 + w.val, hklt⟩ rfl rfl,
    gated_plane1, flat_apply x0 hc b c h w _ _ rfl rfl, flat_apply x1 hc b c h w _ _ rfl rfl,
    pack_apply0, pack_apply1, row_apply gr hc4 hb1 b c _ rfl, row_apply gi hc4 hb1 b c _ rfl]

/-- The broadcast side at (0, b, c, h, w): the real part. -/
theorem right_plane0 (x0 x1 : FVec Ideal X4 .f32) (gr gi : FVec Ideal P2 .f32)
    (hb2 : P2.BroadcastsInDim Q4 (![0, 1] : Fin 2 → Fin Q4.rank))
    (hb4 : Q4.BroadcastsInDim X4 (![0, 1, 2, 3] : Fin 4 → Fin X4.rank))
    (hb5 : X4.BroadcastsInDim U5 (![1, 2, 3, 4] : Fin 4 → Fin U5.rank))
    (hcat5 : Shape.Concatenates [U5, U5] O5 0)
    (b : Fin 16) (c : Fin 256) (h w : Fin 128) :
    concatenate O5 0
          [⟨U5, broadcastInDim U5 ![1, 2, 3, 4] hb5
                  (subf (mulf x0 (broadcastInDim X4 ![0, 1, 2, 3] hb4 (broadcastInDim Q4 ![0, 1] hb2 gr)))
                        (mulf x1 (broadcastInDim X4 ![0, 1, 2, 3] hb4 (broadcastInDim Q4 ![0, 1] hb2 gi))))⟩,
           ⟨U5, broadcastInDim U5 ![1, 2, 3, 4] hb5
                  (addf (mulf x0 (broadcastInDim X4 ![0, 1, 2, 3] hb4 (broadcastInDim Q4 ![0, 1] hb2 gi)))
                        (mulf x1 (broadcastInDim X4 ![0, 1, 2, 3] hb4 (broadcastInDim Q4 ![0, 1] hb2 gr))))⟩] hcat5 (ix5 (0 : Fin 2) b c h w)
      = x0 (ix4 b c h w) * gr (ix2 b c) - x1 (ix4 b c h w) * gi (ix2 b c) := by
  rw [stack_apply0, plane_apply, subf_apply, mulf_apply, mulf_apply, gate_bcast_apply, gate_bcast_apply]

/-- The broadcast side at (1, b, c, h, w): the imaginary part. -/
theorem right_plane1 (x0 x1 : FVec Ideal X4 .f32) (gr gi : FVec Ideal P2 .f32)
    (hb2 : P2.BroadcastsInDim Q4 (![0, 1] : Fin 2 → Fin Q4.rank))
    (hb4 : Q4.BroadcastsInDim X4 (![0, 1, 2, 3] : Fin 4 → Fin X4.rank))
    (hb5 : X4.BroadcastsInDim U5 (![1, 2, 3, 4] : Fin 4 → Fin U5.rank))
    (hcat5 : Shape.Concatenates [U5, U5] O5 0)
    (b : Fin 16) (c : Fin 256) (h w : Fin 128) :
    concatenate O5 0
          [⟨U5, broadcastInDim U5 ![1, 2, 3, 4] hb5
                  (subf (mulf x0 (broadcastInDim X4 ![0, 1, 2, 3] hb4 (broadcastInDim Q4 ![0, 1] hb2 gr)))
                        (mulf x1 (broadcastInDim X4 ![0, 1, 2, 3] hb4 (broadcastInDim Q4 ![0, 1] hb2 gi))))⟩,
           ⟨U5, broadcastInDim U5 ![1, 2, 3, 4] hb5
                  (addf (mulf x0 (broadcastInDim X4 ![0, 1, 2, 3] hb4 (broadcastInDim Q4 ![0, 1] hb2 gi)))
                        (mulf x1 (broadcastInDim X4 ![0, 1, 2, 3] hb4 (broadcastInDim Q4 ![0, 1] hb2 gr))))⟩] hcat5 (ix5 (1 : Fin 2) b c h w)
      = x0 (ix4 b c h w) * gi (ix2 b c) + x1 (ix4 b c h w) * gr (ix2 b c) := by
  rw [stack_apply1, plane_apply, addf_apply, mulf_apply, mulf_apply, gate_bcast_apply, gate_bcast_apply]

/-! ## The two arrangements agree -/

/-- The kernel's arrangement of the gated output (flatten x, pack the two [16,256] gates as [2,4096,1], complex product
    row by row in [2,4096,16384], reshape to [2,16,256,128,128]) is the reference's (broadcast each gate over height and
    width, multiply, subtract / add, stack the two planes). -/
theorem gated_eq_stack (x0 x1 : FVec Ideal X4 .f32) (gr gi : FVec Ideal P2 .f32)
    (hc : X4.ShapeCasts X2) (hc4 : P2.ShapeCasts V1)
    (hb1 : V1.BroadcastsInDim R2 (![1] : Fin 1 → Fin R2.rank))
    (hcat : Shape.Concatenates [R2, R2] T2 0) (hc3 : T2.ShapeCasts G3) (hc5 : O3.ShapeCasts O5)
    (hb2 : P2.BroadcastsInDim Q4 (![0, 1] : Fin 2 → Fin Q4.rank))
    (hb4 : Q4.BroadcastsInDim X4 (![0, 1, 2, 3] : Fin 4 → Fin X4.rank))
    (hb5 : X4.BroadcastsInDim U5 (![1, 2, 3, 4] : Fin 4 → Fin U5.rank))
    (hcat5 : Shape.Concatenates [U5, U5] O5 0) :
    shapeCast O5
        (gated (shapeCast X2 x0 hc) (shapeCast X2 x1 hc)
          (shapeCast G3
            (concatenate T2 0 [⟨R2, broadcastInDim R2 ![1] hb1 (shapeCast V1 gr hc4)⟩,
                               ⟨R2, broadcastInDim R2 ![1] hb1 (shapeCast V1 gi hc4)⟩] hcat) hc3)) hc5
      = concatenate O5 0
          [⟨U5, broadcastInDim U5 ![1, 2, 3, 4] hb5
                  (subf (mulf x0 (broadcastInDim X4 ![0, 1, 2, 3] hb4 (broadcastInDim Q4 ![0, 1] hb2 gr)))
                        (mulf x1 (broadcastInDim X4 ![0, 1, 2, 3] hb4 (broadcastInDim Q4 ![0, 1] hb2 gi))))⟩,
           ⟨U5, broadcastInDim U5 ![1, 2, 3, 4] hb5
                  (addf (mulf x0 (broadcastInDim X4 ![0, 1, 2, 3] hb4 (broadcastInDim Q4 ![0, 1] hb2 gi)))
                        (mulf x1 (broadcastInDim X4 ![0, 1, 2, 3] hb4 (broadcastInDim Q4 ![0, 1] hb2 gr))))⟩] hcat5 := by
  funext j
  obtain ⟨s, b, c, h, w, rfl⟩ : ∃ (s : Fin 2) (b : Fin 16) (c : Fin 256) (h w : Fin 128), j = ix5 s b c h w :=
    ⟨j 0, j 1, j 2, j 3, j 4, eq_ix5 j⟩
  match s with
  | ⟨0, _⟩ =>
    exact (left_plane0 x0 x1 gr gi hc hc4 hb1 hcat hc3 hc5 b c h w).trans
      (right_plane0 x0 x1 gr gi hb2 hb4 hb5 hcat5 b c h w).symm
  | ⟨1, _⟩ =>
    exact (left_plane1 x0 x1 gr gi hc hc4 hb1 hcat hc3 hc5 b c h w).trans
      (right_plane1 x0 x1 gr gi hb2 hb4 hb5 hcat5 b c h w).symm

end Cert.ChannelGate

end
-- ==== Proof.Bridge.lean ====
/-
  The two programs' results are one function of the ten arguments. The kernel program pools each flattened row
  (sum times 2^-14, fold of max) where the reference pools over the two trailing axes (sum from zero divided by 16384,
  maximum-reduce): the same [16, 256] arrays (PoolBridge.lean). Both then apply the same gate network, with the same
  dimension records, to the same pooled arrays and weights; and the kernel program's row-by-row complex product of the
  flattened inputs with the packed gates, reshaped, is the reference's stack of the two planes (GateBridge.lean).
-/
import proofs.«122062_j31482110280381_2_alg».proof.Proof.KernelValue
import proofs.«122062_j31482110280381_2_alg».proof.Proof.RefSpec
import proofs.«122062_j31482110280381_2_alg».proof.Proof.PoolBridge
import proofs.«122062_j31482110280381_2_alg».proof.Proof.GateBridge

noncomputable section

namespace Cert.Proof.Bridge

open Cert.ChannelGate Idealize.ShloMosaic

/-- The two programs print the same dimension records and shape relations. -/
theorem net_eq : Cert.KernelIdeal.Entry.net = Cert.ReferenceIdeal.RefV.net := rfl

/-- The pooled means agree. -/
theorem mean_eq (x : FVec Ideal X4 .f32) : Cert.KernelIdeal.Out.pooled rowMean x = Cert.ReferenceIdeal.RefV.meanHW x :=
  rowMean_flat_eq x _ _ _ _ _

/-- The pooled maxima agree. -/
theorem max_eq (x : FVec Ideal X4 .f32) : Cert.KernelIdeal.Out.pooled rowMax x = Cert.ReferenceIdeal.RefV.maxHW x :=
  rowMax_flat_eq x _ _ _ _

/-- The kernel program's result is the reference's, as functions of the ten arguments. -/
theorem result_eq (x0 x1 : FVec Ideal X4 .f32) (w1r w1i : FVec Ideal B64x256 .f32) (b1r b1i : FVec Ideal B64 .f32)
    (w2r w2i : FVec Ideal B256x64 .f32) (b2r b2i : FVec Ideal B256 .f32) :
    Cert.KernelIdeal.Out.result x0 x1 w1r w1i b1r b1i w2r w2i b2r b2i
      = Cert.ReferenceIdeal.RefV.result x0 x1 w1r w1i b1r b1i w2r w2i b2r b2i := by
  unfold Cert.KernelIdeal.Out.result Cert.ReferenceIdeal.RefV.result
  rw [mean_eq x0, mean_eq x1, max_eq x0, max_eq x1, net_eq]
  exact gated_eq_stack x0 x1 _ _ _ _ _ _ _ _ _ _ _ _

end Cert.Proof.Bridge

end
-- ==== Proof.lean ====
/-
  The certificate: the complex channel-attention kernel (a pooling pass, a small gate network on the host, a gating pass)
  against its jnp reference, at the ideal instance.

  The three frames: the word-level and the idealized kernel programs' frames are the launch of their two regions among the
  host stretches; the reference has no kernel, and its frame is its run with the result dropped. The ideal pass rewrote
  nothing, so the idealization is preserved trivially. The two idealized programs end with equal results: the kernel
  program's result and the reference's are each ONE function of the ten arguments (KernelValue.lean, RefValue.lean), and
  the two functions are equal (Bridge.lean): the pooled means and maxima agree on every extended real (a sum times 2^-14
  is the sum divided by 2^14; a fold of max over a flattened row is the maximum-reduce over the two trailing axes), the gate
  network is the same function on both sides, and the row-by-row complex product with the packed gates, reshaped, is the
  stack of the two planes of the broadcast product. No finiteness of the inputs is used.
-/
import proofs.«122062_j31482110280381_2_alg».proof.Defs
import proofs.«122062_j31482110280381_2_alg».proof.Proof.Gen.Kernel
import proofs.«122062_j31482110280381_2_alg».proof.Proof.Gen.Kernel.Skeleton
import proofs.«122062_j31482110280381_2_alg».proof.Proof.Gen.Kernel.Launch
import proofs.«122062_j31482110280381_2_alg».proof.Proof.Gen.Kernel.Points
import proofs.«122062_j31482110280381_2_alg».proof.Proof.Gen.Kernel.Frame
import proofs.«122062_j31482110280381_2_alg».proof.Proof.Gen.KernelIdeal
import proofs.«122062_j31482110280381_2_alg».proof.Proof.Gen.KernelIdeal.Skeleton
import proofs.«122062_j31482110280381_2_alg».proof.Proof.Gen.KernelIdeal.Launch
import proofs.«122062_j31482110280381_2_alg».proof.Proof.Gen.KernelIdeal.Points
import proofs.«122062_j31482110280381_2_alg».proof.Proof.Gen.KernelIdeal.Frame
import proofs.«122062_j31482110280381_2_alg».proof.Proof.Gen.ReferenceIdeal
import proofs.«122062_j31482110280381_2_alg».proof.Proof.Gen.Pre_finite_inputs
import proofs.«122062_j31482110280381_2_alg».proof.Proof.KernelValue
import proofs.«122062_j31482110280381_2_alg».proof.Proof.RefValue
import proofs.«122062_j31482110280381_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefV.run m ρ)

/-- From memories agreeing on the arguments both idealized programs run, and end with the same result: each result is
    its program's function of the ten arguments, and the two functions are equal. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.RefV.run m' ρ')
  obtain ⟨a0, a1, a2, a3, a4, a5, a6, a7, a8, a9⟩ := hagree c
  rw [a0, a1, a2, a3, a4, a5, a6, a7, a8, a9]
  exact (Cert.Proof.Bridge.result_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
